-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x128 .f32) (main_arg3 : FVec F S128 .f32) (main_arg4 : FVec F S128x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x64 : Shape := ⟨2, ![850000, 64]⟩
abbrev S10000x64 : Shape := ⟨2, ![10000, 64]⟩
abbrev S10000x128 : Shape := ⟨2, ![10000, 128]⟩
abbrev S1x128 : Shape := ⟨2, ![1, 128]⟩
abbrev S1x64 : Shape := ⟨2, ![1, 64]⟩

abbrev nBuf : Space → Nat
  | .hbm => 68
  | .vmem => 7
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x64, .f32⟩
  | .hbm, ⟨29, _⟩ => ⟨S50000x64, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000x64, .f32⟩
  | .hbm, ⟨39, _⟩ => ⟨S_, .f32⟩
  | .hbm, ⟨40, _⟩ => ⟨S50000x64, .f32⟩
  | .hbm, ⟨41, _⟩ => ⟨S850000x1, .i32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S64x128, .bf16⟩
  | .hbm, ⟨46, _⟩ => ⟨S128x64, .bf16⟩
  | .hbm, ⟨47, _⟩ => ⟨S50000x64, .f32⟩
  | .hbm, ⟨48, _⟩ => ⟨S50000x64, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S50000x64, .f32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S64x128, .bf16⟩
  | .local _ .vmem, ⟨3, _⟩ => ⟨S128, .f32⟩
  | .local _ .vmem, ⟨4, _⟩ => ⟨S128x64, .bf16⟩
  | .local _ .vmem, ⟨5, _⟩ => ⟨S10000x64, .f32⟩
  | .local _ .vmem, ⟨6, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S50000x64.size a
  hwx0_4 : ∀ i : grid0.Coords, EltTy.bits .f32 = 32 ∨ (Rect.block (s := S50000x64) S10000x64.size (cc0_transform_4 i) (hinb0_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v29) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S850000x64 : Shape := ⟨2, ![850000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.LibRowTakeAdd.lean ====
/-
  Taking rows of, and adding rows into, a two-axis array at a column of index words.

  What h[src] and a segment sum over rows lower to, for an operand [N, C] and a column of index words [R, 1]: a
  gather of whole rows, and an accumulating scatter of whole rows.

  The gather's result row e is the operand's row at the word idx[e, 0], read as a signed integer and clamped into
  [0, N - 1]; the column is kept. The scatter sends update row e to the operand row idx[e, 0], read as a signed
  integer and not clamped, column to column; an update whose word is not a row of the operand is dropped. So the
  accumulated result at (p, k) is the operand's element plus the sum, over the update rows e whose word denotes p,
  of the update's element (e, k). The row an index word selects does not depend on the extent C of the rows.
-/
import Idealize.ShloMosaic.Lib.ValueIdx

noncomputable section

open scoped BigOperators

namespace Cert.RowTakeAdd

open Idealize.ShloMosaic Idealize.ShloMosaic.ValueIdx

section Take
variable {α : Type}

/-- The gather's dimension numbers for an operand [N, C], start indices [R, 1] and result [R, C]: one start
    component per result row, naming operand axis 0, which is collapsed; whole rows of C elements are read. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start word selects: the word read as a signed integer, clamped into [0, N - 1]. -/
def takeRow (N : Nat) {w : Nat} (hN : 0 < N) (v : BitVec w) : Fin N := ⟨min v.toInt.toNat (N - 1), by omega⟩

/-- The gather read at (e, k): the operand at row `takeRow` of the word idx[e, 0] and at column k. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGatherDims N R C wf) x idx (ix2 e k)
      = x (ix2 (takeRow N hN (idx (ix2 e (0 : Fin 1)))) k) := by
  unfold Host.gather
  refine congrArg x ?_
  funext a
  refine Fin.ext ?_
  match a with
  | ⟨0, _⟩ =>
    show (rowGatherDims N R C wf).start (ix2 e k) idx 0 + (rowGatherDims N R C wf).batchCoord (ix2 e k) 0
      + (rowGatherDims N R C wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e k) ⟨List.idxOf (0 : Fin 2) (rowGatherDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N R C wf).start (ix2 e k) idx 1 + (rowGatherDims N R C wf).batchCoord (ix2 e k) 1
      + (rowGatherDims N R C wf).offCoord (ix2 e k) 1 = k.val
    rw [GatherDims.batchCoord_eq_zero _ _ _ List.not_mem_nil]
    have hst : (rowGatherDims N R C wf).start (ix2 e k) idx 1 = 0 := by
      unfold GatherDims.start
      rw [dif_neg]
      intro h
      exact absurd (List.mem_singleton.mp h) (show ¬ ((1 : Fin 2) = 0) by decide)
    have hoff : (rowGatherDims N R C wf).offCoord (ix2 e k) 1 = k.val := by
      unfold GatherDims.offCoord
      rw [dif_pos ((GatherDims.mem_sKept _ _).mpr ⟨fun h => absurd (List.mem_singleton.mp h) (show ¬ ((1 : Fin 2) = 0) by decide), List.not_mem_nil⟩)]
      rfl
    rw [hst, hoff]
    omega

end Take

section Add

/-- The scatter's dimension numbers for an operand [N, C], scatter indices [R, 1] and updates [R, C]: one index
    component per update row, naming operand axis 0, which is inserted; the updates' axis 1 is the window. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On the row axis the window of update (e, k) starts at the word idx[e, 0], read signed. -/
private theorem start_row {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 0 = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e k) ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0: no index component names that axis. -/
private theorem start_col {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 1 = 0 := by
  unfold ScatterDims.start
  rw [dif_neg]
  intro h
  exact absurd (List.mem_singleton.mp h) (show ¬ ((1 : Fin 2) = 0) by decide)

/-- The row axis is inserted: its window coordinate is 0. -/
private theorem window_row {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 0 = 0 := by
  unfold ScatterDims.window
  rw [dif_neg]
  intro h
  have := (List.mem_filter.1 h).2
  simp at this

/-- The column axis is the window: its coordinate is the update's column. -/
private theorem window_col {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 1 = k.val := by
  unfold ScatterDims.window
  rw [dif_pos (show (1 : Fin 2) ∈ (rowScatterDims N R C wf).sKept from
    List.mem_filter.2 ⟨List.mem_finRange _, by simp⟩)]
  rfl

/-- Where update (e, k) lands: at (p, k') exactly when the word idx[e, 0], read signed, is the row p, and k' is k. -/
theorem resultIdx_rows_iff {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) (p : Fin N) (k' : Fin C) :
    (rowScatterDims N R C wf).resultIdx? (ix2 e k) idx = some (ix2 p k')
      ↔ (idx (ix2 e (0 : Fin 1))).toInt = (p.val : Int) ∧ k = k' := by
  have h0 : (rowScatterDims N R C wf).start (ix2 e k) idx 0 + (((rowScatterDims N R C wf).window (ix2 e k) 0 : Nat) : Int)
      = (idx (ix2 e (0 : Fin 1))).toInt := by
    rw [start_row, window_row]; simp
  have h1 : (rowScatterDims N R C wf).start (ix2 e k) idx 1 + (((rowScatterDims N R C wf).window (ix2 e k) 1 : Nat) : Int)
      = (k.val : Int) := by
    rw [start_col, window_col]; simp
  unfold ScatterDims.resultIdx?
  constructor
  · intro h
    split at h
    · rename_i hin
      have hf := Option.some.inj h
      have e0 : ((rowScatterDims N R C wf).start (ix2 e k) idx 0
          + (((rowScatterDims N R C wf).window (ix2 e k) 0 : Nat) : Int)).toNat = p.val :=
        congrArg (fun f : (⟨2, ![N, C]⟩ : Shape).Idx => (f 0).val) hf
      have e1 : ((rowScatterDims N R C wf).start (ix2 e k) idx 1
          + (((rowScatterDims N R C wf).window (ix2 e k) 1 : Nat) : Int)).toNat = k'.val :=
        congrArg (fun f : (⟨2, ![N, C]⟩ : Shape).Idx => (f 1).val) hf
      have hn := (hin 0).1
      rw [h0] at e0 hn
      rw [h1] at e1
      refine ⟨by omega, Fin.ext (by omega)⟩
    · exact absurd h (by simp)
  · rintro ⟨hv, rfl⟩
    have hin : ∀ a, 0 ≤ (rowScatterDims N R C wf).start (ix2 e k) idx a + ((rowScatterDims N R C wf).window (ix2 e k) a : Int)
        ∧ (rowScatterDims N R C wf).start (ix2 e k) idx a + ((rowScatterDims N R C wf).window (ix2 e k) a : Int)
          < ((⟨2, ![N, C]⟩ : Shape).size a : Int) := by
      intro a
      match a with
      | ⟨0, _⟩ =>
        show 0 ≤ (rowScatterDims N R C wf).start (ix2 e k) idx 0 + (((rowScatterDims N R C wf).window (ix2 e k) 0 : Nat) : Int)
          ∧ (rowScatterDims N R C wf).start (ix2 e k) idx 0 + (((rowScatterDims N R C wf).window (ix2 e k) 0 : Nat) : Int)
            < ((N : Nat) : Int)
        rw [h0, hv]
        have := p.isLt
        omega
      | ⟨1, _⟩ =>
        show 0 ≤ (rowScatterDims N R C wf).start (ix2 e k) idx 1 + (((rowScatterDims N R C wf).window (ix2 e k) 1 : Nat) : Int)
          ∧ (rowScatterDims N R C wf).start (ix2 e k) idx 1 + (((rowScatterDims N R C wf).window (ix2 e k) 1 : Nat) : Int)
            < ((C : Nat) : Int)
        rw [h1]
        have := k.isLt
        omega
    rw [dif_pos hin]
    refine congrArg some ?_
    funext a
    refine Fin.ext ?_
    match a with
    | ⟨0, _⟩ =>
      show ((rowScatterDims N R C wf).start (ix2 e k) idx 0
        + (((rowScatterDims N R C wf).window (ix2 e k) 0 : Nat) : Int)).toNat = p.val
      rw [h0, hv]
      exact Int.toNat_natCast _
    | ⟨1, _⟩ =>
      show ((rowScatterDims N R C wf).start (ix2 e k) idx 1
        + (((rowScatterDims N R C wf).window (ix2 e k) 1 : Nat) : Int)).toNat = k.val
      rw [h1]
      exact Int.toNat_natCast _

/-- The accumulating scatter read at (p, k): the operand's element plus the sum, over the update rows e whose word
    idx[e, 0] read signed is the row p, of the update's element (e, k). -/
theorem scatterAdd_rows_apply {N R C w : Nat} {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (p : Fin N) (k : Fin C) :
    Host.scatterAdd (F := Ideal) (rowScatterDims N R C wf) x idx upd (ix2 p k)
      = x (ix2 p k) + ∑ e ∈ Finset.univ.filter
          (fun e : Fin R => (idx (ix2 e (0 : Fin 1))).toInt = (p.val : Int)), upd (ix2 e k) := by
  show Ideal.hostScatterAdd (rowScatterDims N R C wf) x idx upd (ix2 p k) = _
  unfold Ideal.hostScatterAdd
  refine congrArg (fun t => x (ix2 p k) + t) ?_
  rw [Finset.sum_filter, Finset.sum_filter, sum_idx2]
  refine Finset.sum_congr rfl fun e _ => ?_
  by_cases hv : (idx (ix2 e (0 : Fin 1))).toInt = (p.val : Int)
  · rw [if_pos hv, Finset.sum_eq_single k]
    · rw [if_pos ((resultIdx_rows_iff wf idx e k p k).mpr ⟨hv, rfl⟩)]
    · intro b _ hb
      rw [if_neg]
      intro h
      exact hb ((resultIdx_rows_iff wf idx e b p k).mp h).2
    · intro h
      exact absurd (Finset.mem_univ _) h
  · rw [if_neg hv]
    refine Finset.sum_eq_zero fun b _ => ?_
    rw [if_neg]
    intro h
    exact hv ((resultIdx_rows_iff wf idx e b p k).mp h).1

end Add

end Cert.RowTakeAdd

end
-- ==== Proof.KDefs.lean ====
/-
  The kernel program's result as one term of its six argument arrays, at the exact real instance.

  A graph convolution A·X is computed here from a list of edges: the sources `srcs` and the targets `dsts` are the two
  rows of the edge array, each followed by the node numbers 0 … N-1 (one loop per node). The degree of a node is the
  number of targets equal to it, `dinv` its inverse square root (0 where the degree is 0). `aggregate v` takes, for
  every edge, the row of `v` at the edge's source, and adds it into the row of the result named by the edge's target.
  The program scales by `dinv` before and after each aggregation; between the two aggregations the Pallas call applies,
  row by row, `relu (a · W1 + b1) · W2` (`mlpAt`).
-/
import proofs.«101030_j23630910062676_2_alg».proof.KernelIdeal
import proofs.«101030_j23630910062676_2_alg».proof.Proof.Gen.KernelIdeal
import Idealize.ShloMosaic.PureOps.Ideal
import Idealize.ShloMosaic.Lib.ValueIdx
import proofs.«101030_j23630910062676_2_alg».proof.Proof.LibRowTakeAdd

noncomputable section

open scoped BigOperators

namespace Cert.KernelIdeal.KV

open Cert.KernelIdeal Cert.KernelIdeal.Facts₀ Cert.KernelIdeal.Facts Idealize.ShloMosaic Idealize.ShloMosaic.ValueIdx

/-- A float array of shape `S` at the exact real instance. -/
abbrev Arr (S : Shape) (φ : FTy := .f32) := FVec Ideal S φ
/-- A 32-bit integer array of shape `S`. -/
abbrev IArr (S : Shape) := IVec S 32

/-- The sources: row 0 of the edge array, then the node numbers. -/
def srcs (ei : IArr S2x800000) : IArr S850000 :=
  concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0

/-- The targets: row 1 of the edge array, then the node numbers. -/
def dsts (ei : IArr S2x800000) : IArr S850000 :=
  concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

/-- The targets as a column of index words: where each edge's row is added. -/
def dcol (ei : IArr S2x800000) : IArr S850000x1 :=
  broadcastInDim S850000x1 ![0] bcast_S850000_S850000x1_0 (dsts ei)

/-- The sources as a column of index words, a negative word moved up by the number of nodes: where each edge's row is taken. -/
def scol (ei : IArr S2x800000) : IArr S850000x1 :=
  broadcastInDim S850000x1 ![0] bcast_S850000_S850000x1_0
    (select (cmpi .slt (srcs ei) (broadcastInDim S850000 ![] bcast_S_S850000 (constantI S_ 32 0#32)))
      (addi (srcs ei) (broadcastInDim S850000 ![] bcast_S_S850000 (constantI S_ 32 50000#32))) (srcs ei))

/-- The degrees: one added at every edge's target. -/
def deg (ei : IArr S2x800000) : Arr S50000 :=
  Host.scatterAdd (F := Ideal) scatter_S50000_S850000x1_S850000_n_0_0_1
    (broadcastInDim S50000 ![] bcast_S_S50000 (constant (F := Ideal) S_ .f32 0x00000000#32)) (dcol ei)
    (broadcastInDim S850000 ![] bcast_S_S850000 (constant (F := Ideal) S_ .f32 0x3F800000#32))

/-- The inverse square roots of the degrees, 0 where the degree is not positive. -/
def dinv (ei : IArr S2x800000) : Arr S50000 :=
  select (cmpf (F := Ideal) .ogt (deg ei) (broadcastInDim S50000 ![] bcast_S_S50000 (constant (F := Ideal) S_ .f32 0x00000000#32)))
    (Host.rsqrt (F := Ideal) (deg ei))
    (broadcastInDim S50000 ![] bcast_S_S50000 (id (constant (F := Ideal) S_ .f32 0x00000000#32)))

/-- `dinv` kept as a column. -/
def dinvcol (ei : IArr S2x800000) : Arr S50000x1 :=
  broadcastInDim S50000x1 ![0] bcast_S50000_S50000x1_0 (dinv ei)

/-- `dinv` repeated along the 64 columns. -/
def dinvfull (ei : IArr S2x800000) : Arr S50000x64 :=
  broadcastInDim S50000x64 ![0, 1] bcast_S50000x1_S50000x64_0_1 (dinvcol ei)

/-- For every edge the row of `v` at its source, added into the row of its target, from zero. -/
def aggregate (v : Arr S50000x64) (ei : IArr S2x800000) : Arr S50000x64 :=
  Host.scatterAdd (F := Ideal) scatter_S50000x64_S850000x1_S850000x64_1_0_0_1
    (broadcastInDim S50000x64 ![] bcast_S_S50000x64 (constant (F := Ideal) S_ .f32 0x00000000#32)) (dcol ei)
    (Host.gather gather_S50000x64_S850000x1_S850000x64_1_0_n_n_0_1_164 v (scol ei))

/-- The first aggregation, scaled by `dinv` before and after: what the Pallas call's first operand holds. -/
def agg1 (x : Arr S50000x64) (ei : IArr S2x800000) : Arr S50000x64 :=
  mulf (F := Ideal) (aggregate (mulf (F := Ideal) x (dinvfull ei)) ei) (dinvfull ei)

/-- A weight matrix in the Pallas call's operand format (the same numbers at the exact real instance). -/
def w1b (w1 : Arr S64x128) : Arr S64x128 .bf16 := truncf (F := Ideal) .bf16 w1 bitsLt_bf16_f32
def w2b (w2 : Arr S128x64) : Arr S128x64 .bf16 := truncf (F := Ideal) .bf16 w2 bitsLt_bf16_f32

/-- Row `p`, column `q` of `relu (a · w1 + b) · w2`. -/
def mlpAt (a : Arr S50000x64) (w1 : Arr S64x128 .bf16) (b : Arr S128) (w2 : Arr S128x64 .bf16) (p : Fin 50000) (q : Fin 64) : EReal :=
  ∑ k : Fin 128, max ((∑ i : Fin 64, (a (ix2 p i) : EReal) * (w1 (ix2 i k) : EReal)) + (b (ix1 k) : EReal)) 0 * (w2 (ix2 k q) : EReal)

/-- The Pallas call's result as one array: `relu (a · w1 + b) · w2`, row by row. -/
def mlpG (a : Arr S50000x64) (w1 : Arr S64x128 .bf16) (b : Arr S128) (w2 : Arr S128x64 .bf16) : Arr S50000x64 :=
  fun idx => mlpAt a w1 b w2 ⟨(idx 0).val, (idx 0).isLt⟩ ⟨(idx 1).val, (idx 1).isLt⟩

/-- What the program does with the Pallas call's result `t2`: the second aggregation, scaled before and after, plus the bias. -/
def post (t2 : Arr S50000x64) (ei : IArr S2x800000) (b2 : Arr S64) : Arr S50000x64 :=
  addf (F := Ideal) (mulf (F := Ideal) (aggregate (mulf (F := Ideal) t2 (dinvfull ei)) ei) (dinvfull ei))
    (broadcastInDim S50000x64 ![0, 1] bcast_S1x64_S50000x64_0_1 (broadcastInDim S1x64 ![1] bcast_S64_S1x64_1 b2))

/-- The program's result as one term of its arguments. -/
def term (x : Arr S50000x64) (ei : IArr S2x800000) (w1 : Arr S64x128) (b1 : Arr S128) (w2 : Arr S128x64) (b2 : Arr S64) : Arr S50000x64 :=
  post (mlpG (agg1 x ei) (w1b w1) b1 (w2b w2)) ei b2

/-- The node an edge takes its row from: its source word read signed and clamped into the node range. -/
def gK (ei : IArr S2x800000) (e : Fin 850000) : Fin 50000 :=
  Cert.RowTakeAdd.takeRow 50000 (by decide) (scol ei (ix2 e (0 : Fin 1)))

/-- The edges whose target word, read signed, is the node `p`: those that add into row `p`. -/
def LK (ei : IArr S2x800000) (p : Fin 50000) : Finset (Fin 850000) :=
  Finset.univ.filter (fun e : Fin 850000 => (dcol ei (ix2 e (0 : Fin 1))).toInt = (p.val : Int))

/-- The weight of node `p`. -/
def δK (ei : IArr S2x800000) (p : Fin 50000) : EReal := dinv ei (ix1 p)

end Cert.KernelIdeal.KV

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.KBody.lean ====
/-
  The Pallas call's body, read at one entry of the block it stores.

  The body stores, for the block of rows it is given, relu (a · W1 + b) · W2: the two products are ordinary matrix
  products accumulated onto zero, the bias row is repeated down the rows, and relu is the maximum with zero. On the
  extended reals the format changes are the identity, so entry (p, q) of what is stored is the sum over the hidden index
  k of max ((Σ_i a (p, i) · W1 (i, k)) + b k) 0 · W2 (k, q). The four operands are variables here: nothing is said yet
  of where the blocks come from.
-/
import proofs.«101030_j23630910062676_2_alg».proof.Proof.Gen.KernelIdeal.Frame
import proofs.«101030_j23630910062676_2_alg».proof.Proof.KDefs
import proofs.«101030_j23630910062676_2_alg».proof.Proof.LibPlainMatmul
import Idealize.ShloMosaic.Lib.Pipeline.Value

noncomputable section

open scoped BigOperators

namespace Cert.KernelIdeal.KV

open Cert.KernelIdeal Cert.KernelIdeal.Gen Cert.KernelIdeal.Facts₀ Cert.KernelIdeal.Facts Idealize.ShloMosaic Idealize.ShloMosaic.ValueIdx

/-- The bias, given one leading unit axis and repeated down the 10000 rows, read at (p, k) is the bias at k. -/
theorem bias_apply (x2 : Vec Ideal S128 .f32) (p : Fin 10000) (k : Fin 128) :
    broadcastTo S10000x128 (shapeCast S1x128 x2 Gen.shapeCasts_S128_S1x128) Gen.broadcasts_S1x128_S10000x128 (ix2 p k)
      = x2 (ix1 k) := by
  refine (broadcastTo_apply _ _ (ix2 p k) (ix2 (0 : Fin 1) k) ?_).trans ?_
  · intro a
    match a with
    | ⟨0, _⟩ => rfl
    | ⟨1, _⟩ => rfl
  · refine (shapeCast_addUnit_apply (n := 1) ![128] x2 Gen.shapeCasts_S128_S1x128 (ix2 (0 : Fin 1) k)).trans ?_
    refine congrArg x2 ?_
    funext d
    match d with
    | ⟨0, _⟩ => rfl

/-- Entry (p, q) of what the body stores: the outer product read as a sum over the hidden index k, its left factor
    the maximum with zero of the inner product plus the bias, the inner product read as a sum over i. -/
theorem pay_apply (x0 : Vec Ideal S10000x64 .f32) (x1 : Vec Ideal S64x128 .bf16) (x2 : Vec Ideal S128 .f32)
    (x3 : Vec Ideal S128x64 .bf16) (p : Fin 10000) (q : Fin 64) :
    Gen.k0_pay1 x0 x1 x2 x3 (ix2 p q)
      = ∑ k : Fin 128, max ((∑ i : Fin 64, x0 (ix2 p i) * x1 (ix2 i k)) + x2 (ix1 k)) 0 * x3 (ix2 k q) := by
  unfold Gen.k0_pay1
  refine (Cert.PlainMatmul.zero_acc_apply (a := 10000) (n := 128) (b := 64) Gen.dot_S10000x128_S128x64_S10000x64_1_0_0_1_n_n_wf none _ _ p q).trans ?_
  refine Finset.sum_congr rfl fun k _ => ?_
  rw [shapeCast_self x3, shapeCast_self x1, shapeCast_self x0]
  refine congrArg (· * x3 (ix2 k q)) ?_
  show max (matmul (F := Ideal) dot_S10000x64_S64x128_S10000x128_1_0_0_1_n_n none (truncf (F := Ideal) FTy.bf16 x0 Gen.bitsLt_bf16_f32) x1 (constant (F := Ideal) S10000x128 FTy.f32 0#32) (ix2 p k)
      + broadcastTo S10000x128 (shapeCast S1x128 x2 Gen.shapeCasts_S128_S1x128) Gen.broadcasts_S1x128_S10000x128 (ix2 p k)) (Ideal.ofBits .f32 0x00000000#32) = _
  rw [Ideal.ofBits_zero_f32, bias_apply]
  refine congrArg (fun z => max (z + x2 (ix1 k)) 0) ?_
  exact Cert.PlainMatmul.zero_acc_apply (a := 10000) (n := 64) (b := 128) Gen.dot_S10000x64_S64x128_S10000x128_1_0_0_1_n_n_wf none _ _ p k

end Cert.KernelIdeal.KV

end
-- ==== Proof.KBlocks.lean ====
/-
  The Pallas call's output array as one function of the arrays the region finds.

  The call runs over five grid points. At point t the first operand's block is rows 10000 t … 10000 t + 9999 of its
  array, the two weight matrices and the bias are whole, and the result's block is rows 10000 t … 10000 t + 9999 of
  the result array. The body stores relu (a · W1 + b) · W2 of the blocks it is given (KBody.lean), a row of which
  depends on the same row of a only; so what point t writes back is block t of the ONE array
  `mlpG a W1 b W2` (KDefs.lean). Row r of the result lies in the block of point r / 10000, so the five blocks cover the
  array and the array ends holding `mlpG` of the four arrays as the region finds them.

  Each step is first proved over ANY contents of the four arrays (variables), then read at the region-entry contents.
-/
import proofs.«101030_j23630910062676_2_alg».proof.Proof.Gen.KernelIdeal.Frame
import proofs.«101030_j23630910062676_2_alg».proof.Proof.KDefs
import proofs.«101030_j23630910062676_2_alg».proof.Proof.LibPlainMatmul
import proofs.«101030_j23630910062676_2_alg».proof.Proof.KBody
import Idealize.ShloMosaic.Lib.Pipeline.Value

noncomputable section

open scoped BigOperators

namespace Cert.KernelIdeal.KV

open Cert.KernelIdeal Cert.KernelIdeal.Gen Cert.KernelIdeal.Facts₀ Cert.KernelIdeal.Facts Idealize.ShloMosaic Idealize.ShloMosaic.ValueIdx

theorem hz2 : (![0, 0] : Fin 2 → Nat) = fun _ => 0 := funext fun a => by fin_cases a <;> rfl
theorem hz1 : (![0] : Fin 1 → Nat) = fun _ => 0 := funext fun a => by fin_cases a <;> rfl

/-- The block index of every window at every grid point, decided over the five points: the first operand and the
    result move down the rows with the point, the weights and the bias stay whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Each window's block, read at an index, over any contents of its array -/

/-- Block t of the first operand is rows 10000 t … 10000 t + 9999. -/
theorem read0_apply (t : Fin cfg0.N) (A : S50000x64.Idx → EReal) (p : Fin 10000) (i : Fin 64) (P : Fin 50000)
    (hP : P.val = t.val * 10000 + p.val) :
    (((cfg0.win 0).blk t).view.read (Elt Ideal) A : Vec Ideal S10000x64 .f32) (ix2 p i) = A (ix2 P i) := by
  obtain ⟨e0, e1, -⟩ := idx_facts t
  rw [View.read_apply]
  show A _ = A _
  refine congrArg A ?_
  funext a
  apply Fin.ext
  match a with
  | ⟨0, _⟩ => show win0_0.index t 0 * 10000 + 1 * p.val = P.val; rw [e0, hP]; omega
  | ⟨1, _⟩ => show win0_0.index t 1 * 64 + 1 * i.val = i.val; rw [e1]; omega

/-- The first weight matrix is whole at every point. -/
theorem read1_apply (t : Fin cfg0.N) (A : S64x128.Idx → EReal) (i : Fin 64) (k : Fin 128) :
    (((cfg0.win 1).blk t).view.read (Elt Ideal) A : Vec Ideal S64x128 .bf16) (ix2 i k) = A (ix2 i k) := by
  obtain ⟨-, -, e0, e1, -⟩ := idx_facts t
  rw [View.read_apply]
  show A _ = A _
  refine congrArg A ?_
  funext a
  apply Fin.ext
  match a with
  | ⟨0, _⟩ => show win0_1.index t 0 * 64 + 1 * i.val = i.val; rw [e0]; omega
  | ⟨1, _⟩ => show win0_1.index t 1 * 128 + 1 * k.val = k.val; rw [e1]; omega

/-- The bias is whole at every point. -/
theorem read2_apply (t : Fin cfg0.N) (A : S128.Idx → EReal) (k : Fin 128) :
    (((cfg0.win 2).blk t).view.read (Elt Ideal) A : Vec Ideal S128 .f32) (ix1 k) = A (ix1 k) := by
  obtain ⟨-, -, -, -, e0, -⟩ := idx_facts t
  rw [View.read_apply]
  show A _ = A _
  refine congrArg A ?_
  funext a
  apply Fin.ext
  match a with
  | ⟨0, _⟩ => show win0_2.index t 0 * 128 + 1 * k.val = k.val; rw [e0]; omega

/-- The second weight matrix is whole at every point. -/
theorem read3_apply (t : Fin cfg0.N) (A : S128x64.Idx → EReal) (k : Fin 128) (q : Fin 64) :
    (((cfg0.win 3).blk t).view.read (Elt Ideal) A : Vec Ideal S128x64 .bf16) (ix2 k q) = A (ix2 k q) := by
  obtain ⟨-, -, -, -, -, e0, e1, -⟩ := idx_facts t
  rw [View.read_apply]
  show A _ = A _
  refine congrArg A ?_
  funext a
  apply Fin.ext
  match a with
  | ⟨0, _⟩ => show win0_3.index t 0 * 128 + 1 * k.val = k.val; rw [e0]; omega
  | ⟨1, _⟩ => show win0_3.index t 1 * 64 + 1 * q.val = q.val; rw [e1]; omega

/-! ## What one point stores, and what it writes back -/

/-- Entry (p, q) of what point t stores, over any contents of the four arrays, is entry (10000 t + p, q) of the whole
    result of those contents. -/
theorem out4_gen (t : Fin cfg0.N) (A0 : S50000x64.Idx → EReal) (A1 : S64x128.Idx → EReal) (A2 : S128.Idx → EReal)
    (A3 : S128x64.Idx → EReal) (p : Fin 10000) (q : Fin 64) (P : Fin 50000) (hP : P.val = t.val * 10000 + p.val) :
    k0_pay1 (((cfg0.win 0).blk t).view.read (Elt Ideal) A0) (((cfg0.win 1).blk t).view.read (Elt Ideal) A1)
        (((cfg0.win 2).blk t).view.read (Elt Ideal) A2) (((cfg0.win 3).blk t).view.read (Elt Ideal) A3) (ix2 p q)
      = mlpAt A0 A1 A2 A3 P q := by
  refine (pay_apply _ _ _ _ p q).trans ?_
  unfold mlpAt
  refine Finset.sum_congr rfl fun k _ => ?_
  rw [read2_apply t A2 k, read3_apply t A3 k q]
  refine congrArg (fun z => max (z + A2 (ix1 k)) 0 * A3 (ix2 k q)) ?_
  refine Finset.sum_congr rfl fun i _ => ?_
  rw [read0_apply t A0 p i P hP, read1_apply t A1 i k]

/-- Contents of the result's staging buffer that agree, entry by entry, with rows 10000 t … of an array are written
    back as block t of that array. -/
theorem flushed4_at (t : Fin cfg0.N) (X : Vec Ideal S10000x64 .f32) (G : S50000x64.Idx → EReal)
    (h : ∀ (p : Fin 10000) (q : Fin 64) (P : Fin 50000), P.val = t.val * 10000 + p.val → X (ix2 p q) = G (ix2 P q)) :
    (cfg0.win 4).cut (grid0.coords t) X = ((cfg0.win 4).blk t).view.read (Elt Ideal) G := by
  obtain ⟨-, -, -, -, -, -, -, e0, e1⟩ := idx_facts t
  have hN : t.val < 5 := lt_of_lt_of_eq t.isLt N_0
  funext j
  rw [View.read_apply]
  show X _ = G _
  have hj0 : (j 0).val < 10000 := (j 0).isLt
  have hj1 : (j 1).val < 64 := (j 1).isLt
  have hl : (cfg0.win 4).xinj (grid0.coords t) j = ix2 (⟨(j 0).val, hj0⟩ : Fin 10000) (⟨(j 1).val, hj1⟩ : Fin 64) :=
    funext fun a => by
      match a with
      | ⟨0, _⟩ => rfl
      | ⟨1, _⟩ => rfl
  have hr : ((cfg0.win 4).blk t).view.emb j = ix2 (⟨t.val * 10000 + (j 0).val, by omega⟩ : Fin 50000) (⟨(j 1).val, hj1⟩ : Fin 64) :=
    funext fun a => Fin.ext (by
      match a with
      | ⟨0, _⟩ => show win0_4.index t 0 * 10000 + 1 * (j 0).val = t.val * 10000 + (j 0).val; rw [e0]; omega
      | ⟨1, _⟩ => show win0_4.index t 1 * 64 + 1 * (j 1).val = (j 1).val; rw [e1]; omega)
  exact (congrArg X hl).trans ((h _ _ _ rfl).trans (congrArg G hr).symm)

/-- What point t leaves in the result's staging buffer, written back, is block t of the whole result: over any contents
    of the four arrays. -/
theorem flushed4_gen (t : Fin cfg0.N) (A0 : S50000x64.Idx → EReal) (A1 : S64x128.Idx → EReal) (A2 : S128.Idx → EReal)
    (A3 : S128x64.Idx → EReal) :
    (cfg0.win 4).cut (grid0.coords t)
        (out0_4 (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (mlpG A0 A1 A2 A3) := by
  unfold out0_4
  rw [View.canon_unit_zero hz2]
  simp only [View.ld_unit_zero (S := S10000x64) hz2, View.ld_unit_zero (S := S64x128) hz2, View.ld_unit_zero (S := S128) hz1,
    View.ld_unit_zero (S := S128x64) hz2]
  exact flushed4_at t _ _ fun p q P hP => out4_gen t A0 A1 A2 A3 p q P hP

/-- What point t writes back is block t of the whole result, of the arrays as the region finds them. -/
theorem flushed4_eq (m : (ℓ : Loc nD τ sig) → Buf (Elt Ideal) ℓ) (c : Dev nD) (t : Fin cfg0.N) :
    (dats m 0 c).flushed 4 t = ((cfg0.win 4).blk t).view.read (Elt Ideal)
      (mlpG (V m c main_v29) (V m c main_v30) (V m c main_arg3) (V m c main_v31)) := by
  show (cfg0.win 4).cut (grid0.coords t) ((dats m 0 c).after 4 t) = _
  rw [after0_4]
  unfold iblk
  exact flushed4_gen t (V m c (Pipeline.arrRef spec0 0)) (V m c (Pipeline.arrRef spec0 1)) (V m c (Pipeline.arrRef spec0 2)) (V m c (Pipeline.arrRef spec0 3))

/-! ## The blocks cover the array -/

/-- An index of the result array is in point t's block iff each coordinate is in the block's range on its axis. -/
theorem mem_blk4 (t : Fin cfg0.N) (i : S50000x64.Idx) :
    i ∈ ((cfg0.win 4).blk t).view.set ↔ ∀ a : Fin 2, win0_4.index t a * S10000x64.size a ≤ (i a).val
      ∧ (i a).val < win0_4.index t a * S10000x64.size a + S10000x64.size a := by
  show i ∈ ((View.whole main_v32).slice (win0_4.rect t)).set ↔ _
  rw [View.set_slice_whole, Rect.mem_set_unit]
  exact Iff.rfl

/-- Row r of the result is in the block of point r / 10000, which writes back. -/
theorem cover4 (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have hlt : (i 0).val / 10000 < cfg0.N := lt_of_lt_of_eq (by omega : (i 0).val / 10000 < 5) N_0.symm
  obtain ⟨-, -, -, -, -, -, -, e0, e1⟩ := idx_facts ⟨(i 0).val / 10000, hlt⟩
  refine ⟨⟨(i 0).val / 10000, hlt⟩, flush0_4 _, ?_⟩
  rw [mem_blk4]
  intro a
  match a with
  | ⟨0, _⟩ =>
    show win0_4.index ⟨(i 0).val / 10000, hlt⟩ 0 * 10000 ≤ (i 0).val
      ∧ (i 0).val < win0_4.index ⟨(i 0).val / 10000, hlt⟩ 0 * 10000 + 10000
    rw [e0]
    show (i 0).val / 10000 * 10000 ≤ (i 0).val ∧ (i 0).val < (i 0).val / 10000 * 10000 + 10000
    omega
  | ⟨1, _⟩ =>
    show win0_4.index ⟨(i 0).val / 10000, hlt⟩ 1 * 64 ≤ (i 1).val
      ∧ (i 1).val < win0_4.index ⟨(i 0).val / 10000, hlt⟩ 1 * 64 + 64
    rw [e1]
    omega

/-! ## The array after the run -/

/-- The result array after the five points: relu (a · W1 + b) · W2 of the arrays the region finds, row by row. -/
theorem final4 (m : (ℓ : Loc nD τ sig) → Buf (Elt Ideal) ℓ) (c : Dev nD) :
    (Gen.dats m 0 c).arrAt 4 cfg0.N = mlpG (Gen.V m c main_v29) (Gen.V m c main_v30) (Gen.V m c main_arg3) (Gen.V m c main_v31) :=
  (dats m 0 c).arrAt_eq_of_cover 4 _ (fun t _ => flushed4_eq m c t) cover4

end Cert.KernelIdeal.KV

end
-- ==== Proof.KPre.lean ====
/-
  The host operations of the kernel program, stretch by stretch, read at the buffers the later steps use.

  The operations before the Pallas call come in three stretches: the first builds the sources, the targets and the
  degrees from the edge array; the second takes the inverse square roots of the degrees, 0 where a degree is not
  positive; the third scales the features, aggregates them along the edges, scales again, and puts the two weight
  matrices in the Pallas call's operand format. The operations after the call aggregate a second time and add the bias.
  Each stretch is read here from ANY contents `X` of the buffers before it, given what `X` holds at the buffers the
  stretch reads; the results are the functions of KDefs.lean.
-/
import proofs.«101030_j23630910062676_2_alg».proof.Proof.Gen.KernelIdeal.Frame
import proofs.«101030_j23630910062676_2_alg».proof.Proof.KDefs

noncomputable section

namespace Cert.KernelIdeal.KV

open Cert.KernelIdeal Cert.KernelIdeal.Facts₀ Cert.KernelIdeal.Facts Idealize.ShloMosaic Idealize.SL.Sem

/-- The buffer contents after two stretches of operations in a row: after the first, then after the second. -/
theorem after_append (l₁ l₂ : List (HloOp τ sig (Elt Ideal))) (X : Valuation τ sig (Elt Ideal)) :
    StableHlo.after (l₁ ++ l₂) X = StableHlo.after l₂ (StableHlo.after l₁ X) := by
  induction l₁ generalizing X with
  | nil => rfl
  | cons op l ih => simp only [List.cons_append, StableHlo.after_cons, ih]

/-! ## The first stretch: sources, targets, degrees -/

section Stretch0
variable (X : Valuation τ sig (Elt Ideal)) (ei : IArr S2x800000)
  (h1 : (X (Proc.devRef .tc main_arg1) : IArr S2x800000) = ei)
include h1

theorem s0_v3 : (StableHlo.after Gen.hostOps0 X (Proc.devRef .tc main_v3) : IArr S850000) = srcs ei := by
  dsimp only [Gen.hostOps0]
  after_results
  rw [h1]
  rfl

theorem s0_v6 : (StableHlo.after Gen.hostOps0 X (Proc.devRef .tc main_v6) : IArr S850000) = dsts ei := by
  dsimp only [Gen.hostOps0]
  after_results
  rw [h1]
  rfl

theorem s0_v12 : (StableHlo.after Gen.hostOps0 X (Proc.devRef .tc main_v12) : IVec S50000 1)
    = cmpf (F := Ideal) .ogt (deg ei) (broadcastInDim S50000 ![] bcast_S_S50000 (constant (F := Ideal) S_ .f32 0x00000000#32)) := by
  dsimp only [Gen.hostOps0]
  after_results
  rw [h1]
  unfold deg dcol dsts
  rfl

theorem s0_v13 : (StableHlo.after Gen.hostOps0 X (Proc.devRef .tc main_v13) : Arr S50000) = Host.rsqrt (F := Ideal) (deg ei) := by
  dsimp only [Gen.hostOps0]
  after_results
  rw [h1]
  unfold deg dcol dsts
  rfl

omit h1 in
theorem s0_cst2 : (StableHlo.after Gen.hostOps0 X (Proc.devRef .tc main_cst_2) : Arr S_) = constant (F := Ideal) S_ .f32 0x00000000#32 := by
  dsimp only [Gen.hostOps0]
  after_results

omit h1 in
theorem s0_arg0 : StableHlo.after Gen.hostOps0 X (Proc.devRef .tc main_arg0) = X (Proc.devRef .tc main_arg0) := by
  dsimp only [Gen.hostOps0]
  after_results

omit h1 in
theorem s0_arg2 : StableHlo.after Gen.hostOps0 X (Proc.devRef .tc main_arg2) = X (Proc.devRef .tc main_arg2) := by
  dsimp only [Gen.hostOps0]
  after_results

omit h1 in
theorem s0_arg4 : StableHlo.after Gen.hostOps0 X (Proc.devRef .tc main_arg4) = X (Proc.devRef .tc main_arg4) := by
  dsimp only [Gen.hostOps0]
  after_results

end Stretch0

/-! ## The second stretch: the inverse square roots, 0 where the degree is not positive -/

section Stretch1
variable (X : Valuation τ sig (Elt Ideal))

theorem s1_v14 (ei : IArr S2x800000)
    (h12 : (X (Proc.devRef .tc main_v12) : IVec S50000 1)
      = cmpf (F := Ideal) .ogt (deg ei) (broadcastInDim S50000 ![] bcast_S_S50000 (constant (F := Ideal) S_ .f32 0x00000000#32)))
    (h13 : (X (Proc.devRef .tc main_v13) : Arr S50000) = Host.rsqrt (F := Ideal) (deg ei))
    (hc : (X (Proc.devRef .tc main_cst_2) : Arr S_) = constant (F := Ideal) S_ .f32 0x00000000#32) :
    (StableHlo.after Gen.hostOps0_1 X (Proc.devRef .tc main_v14) : Arr S50000) = dinv ei := by
  have e : (StableHlo.after Gen.hostOps0_1 X (Proc.devRef .tc main_v14) : Arr S50000)
      = select (X (Proc.devRef .tc main_v12) : IVec S50000 1) (X (Proc.devRef .tc main_v13) : Arr S50000)
          (broadcastInDim S50000 ![] bcast_S_S50000 (id (X (Proc.devRef .tc main_cst_2) : Arr S_))) := by
    dsimp only [Gen.hostOps0_1]
    after_results
    rfl
  rw [e, h12, h13, hc]
  rfl

theorem s1_keep (r : Ref sig .tc) (h0 : r ≠ main_call0_v0) (h1 : r ≠ main_call0_v1) (h2 : r ≠ main_v14) :
    StableHlo.after Gen.hostOps0_1 X (Proc.devRef .tc r) = X (Proc.devRef .tc r) := by
  dsimp only [Gen.hostOps0_1]
  simp only [StableHlo.after_cons, StableHlo.after_nil]
  rw [StableHlo.ternary_result_ne _ _ _ _ _ _ _ _ _ _ h2, StableHlo.unary_result_ne _ _ _ _ _ _ h1, StableHlo.unary_result_ne _ _ _ _ _ _ h0]

end Stretch1

/-! ## The third stretch: the first aggregation and the weights in the Pallas call's format -/

section Stretch2
variable (X : Valuation τ sig (Elt Ideal))

theorem s2_v15 (ei : IArr S2x800000) (h14 : (X (Proc.devRef .tc main_v14) : Arr S50000) = dinv ei) :
    (StableHlo.after Gen.hostOps0_2 X (Proc.devRef .tc main_v15) : Arr S50000x1) = dinvcol ei := by
  dsimp only [Gen.hostOps0_2]
  after_results
  rw [h14]
  rfl

theorem s2_v29 (x : Arr S50000x64) (ei : IArr S2x800000)
    (h0 : (X (Proc.devRef .tc main_arg0) : Arr S50000x64) = x)
    (h3 : (X (Proc.devRef .tc main_v3) : IArr S850000) = srcs ei)
    (h6 : (X (Proc.devRef .tc main_v6) : IArr S850000) = dsts ei)
    (h14 : (X (Proc.devRef .tc main_v14) : Arr S50000) = dinv ei) :
    (StableHlo.after Gen.hostOps0_2 X (Proc.devRef .tc main_v29) : Arr S50000x64) = agg1 x ei := by
  dsimp only [Gen.hostOps0_2]
  after_results_simp
  rw [h0, h3, h6, h14]
  unfold agg1 aggregate dinvfull dinvcol dcol scol
  rfl

theorem s2_v30 (w1 : Arr S64x128) (h2 : (X (Proc.devRef .tc main_arg2) : Arr S64x128) = w1) :
    (StableHlo.after Gen.hostOps0_2 X (Proc.devRef .tc main_v30) : Arr S64x128 .bf16) = w1b w1 := by
  dsimp only [Gen.hostOps0_2]
  after_results
  rw [h2]
  rfl

theorem s2_v31 (w2 : Arr S128x64) (h4 : (X (Proc.devRef .tc main_arg4) : Arr S128x64) = w2) :
    (StableHlo.after Gen.hostOps0_2 X (Proc.devRef .tc main_v31) : Arr S128x64 .bf16) = w2b w2 := by
  dsimp only [Gen.hostOps0_2]
  after_results
  rw [h4]
  rfl

theorem s2_v3 : StableHlo.after Gen.hostOps0_2 X (Proc.devRef .tc main_v3) = X (Proc.devRef .tc main_v3) := by
  dsimp only [Gen.hostOps0_2]
  after_results

theorem s2_v6 : StableHlo.after Gen.hostOps0_2 X (Proc.devRef .tc main_v6) = X (Proc.devRef .tc main_v6) := by
  dsimp only [Gen.hostOps0_2]
  after_results

end Stretch2

/-! ## The operations after the Pallas call: the second aggregation and the bias -/

theorem tail_of (X : Valuation τ sig (Elt Ideal)) (t2 : Arr S50000x64) (ei : IArr S2x800000) (b2 : Arr S64)
    (h32 : (X (Proc.devRef .tc main_v32) : Arr S50000x64) = t2)
    (h3 : (X (Proc.devRef .tc main_v3) : IArr S850000) = srcs ei)
    (h6 : (X (Proc.devRef .tc main_v6) : IArr S850000) = dsts ei)
    (h15 : (X (Proc.devRef .tc main_v15) : Arr S50000x1) = dinvcol ei)
    (h5 : (X (Proc.devRef .tc main_arg5) : Arr S64) = b2) :
    (StableHlo.after Gen.hostOps1 X (Proc.devRef .tc main_v49) : Arr S50000x64) = post t2 ei b2 := by
  dsimp only [Gen.hostOps1]
  after_results_simp
  rw [h32, h3, h6, h15, h5]
  unfold post aggregate dinvfull dcol scol
  rfl

end Cert.KernelIdeal.KV

end
-- ==== Proof.KEntry.lean ====
/-
  The kernel program's run, with its result named as one term of the six argument arrays, given what the Pallas call leaves.

  The host operations before the Pallas call leave, in the call's four operands, the first aggregation of the scaled
  features, the two weight matrices in the call's format, and the first bias as given; the call leaves
  `relu (a · W1 + b1) · W2` row by row; the host operations after it aggregate a second time, scale, and add the second
  bias. Composing the three gives `term`.
-/
import proofs.«101030_j23630910062676_2_alg».proof.Proof.Gen.KernelIdeal.Frame
import proofs.«101030_j23630910062676_2_alg».proof.Proof.KDefs
import proofs.«101030_j23630910062676_2_alg».proof.Proof.KPre

noncomputable section

namespace Cert.KernelIdeal.KV

open Cert.KernelIdeal Cert.KernelIdeal.Gen Idealize.ShloMosaic Idealize.SL.Sem

section Entry
variable (m : (ℓ : Loc nD τ sig) → Buf (Elt Ideal) ℓ) (c : Dev nD)

/-- The contents at the region's entry, stretch after stretch. -/
theorem V0_eq : Gen.V0 m c
    = StableHlo.after Gen.hostOps0_2 (StableHlo.after Gen.hostOps0_1 (StableHlo.after Gen.hostOps0 (fun b => m (c, b)))) := by
  dsimp only [Gen.V0]
  simp only [List.flatten_cons, List.flatten_nil, List.append_nil, after_append]

/-! After the first stretch. -/

theorem A_v3 : (StableHlo.after Gen.hostOps0 (fun b => m (c, b)) (Proc.devRef .tc main_v3) : IArr S850000)
    = srcs (m ((c.tc : Thread nD τ).loc main_arg1)) := s0_v3 _ _ rfl
theorem A_v6 : (StableHlo.after Gen.hostOps0 (fun b => m (c, b)) (Proc.devRef .tc main_v6) : IArr S850000)
    = dsts (m ((c.tc : Thread nD τ).loc main_arg1)) := s0_v6 _ _ rfl

/-! After the second stretch. -/

theorem B_v14 : (StableHlo.after Gen.hostOps0_1 (StableHlo.after Gen.hostOps0 (fun b => m (c, b))) (Proc.devRef .tc main_v14) : Arr S50000)
    = dinv (m ((c.tc : Thread nD τ).loc main_arg1)) :=
  s1_v14 _ _ (s0_v12 _ _ rfl) (s0_v13 _ _ rfl) (s0_cst2 _)
theorem B_v3 : (StableHlo.after Gen.hostOps0_1 (StableHlo.after Gen.hostOps0 (fun b => m (c, b))) (Proc.devRef .tc main_v3) : IArr S850000)
    = srcs (m ((c.tc : Thread nD τ).loc main_arg1)) :=
  (s1_keep _ main_v3 (by decide) (by decide) (by decide)).trans (A_v3 m c)
theorem B_v6 : (StableHlo.after Gen.hostOps0_1 (StableHlo.after Gen.hostOps0 (fun b => m (c, b))) (Proc.devRef .tc main_v6) : IArr S850000)
    = dsts (m ((c.tc : Thread nD τ).loc main_arg1)) :=
  (s1_keep _ main_v6 (by decide) (by decide) (by decide)).trans (A_v6 m c)
theorem B_arg0 : (StableHlo.after Gen.hostOps0_1 (StableHlo.after Gen.hostOps0 (fun b => m (c, b))) (Proc.devRef .tc main_arg0) : Arr S50000x64)
    = m ((c.tc : Thread nD τ).loc main_arg0) :=
  (s1_keep _ main_arg0 (by decide) (by decide) (by decide)).trans (s0_arg0 _)
theorem B_arg2 : (StableHlo.after Gen.hostOps0_1 (StableHlo.after Gen.hostOps0 (fun b => m (c, b))) (Proc.devRef .tc main_arg2) : Arr S64x128)
    = m ((c.tc : Thread nD τ).loc main_arg2) :=
  (s1_keep _ main_arg2 (by decide) (by decide) (by decide)).trans (s0_arg2 _)
theorem B_arg4 : (StableHlo.after Gen.hostOps0_1 (StableHlo.after Gen.hostOps0 (fun b => m (c, b))) (Proc.devRef .tc main_arg4) : Arr S128x64)
    = m ((c.tc : Thread nD τ).loc main_arg4) :=
  (s1_keep _ main_arg4 (by decide) (by decide) (by decide)).trans (s0_arg4 _)

/-! At the region's entry. -/

theorem V0_v3 : (Gen.V0 m c (Proc.devRef .tc main_v3) : IArr S850000) = srcs (m ((c.tc : Thread nD τ).loc main_arg1)) :=
  (congrFun (V0_eq m c) _).trans ((s2_v3 _).trans (B_v3 m c))
theorem V0_v6 : (Gen.V0 m c (Proc.devRef .tc main_v6) : IArr S850000) = dsts (m ((c.tc : Thread nD τ).loc main_arg1)) :=
  (congrFun (V0_eq m c) _).trans ((s2_v6 _).trans (B_v6 m c))
theorem V0_v15 : (Gen.V0 m c (Proc.devRef .tc main_v15) : Arr S50000x1) = dinvcol (m ((c.tc : Thread nD τ).loc main_arg1)) :=
  (congrFun (V0_eq m c) _).trans (s2_v15 _ _ (B_v14 m c))

/-- The Pallas call's first operand: the first aggregation of the scaled features. -/
theorem V_v29 : (Gen.V m c main_v29 : Arr S50000x64)
    = agg1 (m ((c.tc : Thread nD τ).loc main_arg0)) (m ((c.tc : Thread nD τ).loc main_arg1)) :=
  (congrFun (V0_eq m c) _).trans (s2_v29 _ _ _ (B_arg0 m c) (B_v3 m c) (B_v6 m c) (B_v14 m c))
/-- Its second operand: the first weight matrix. -/
theorem V_v30 : (Gen.V m c main_v30 : Arr S64x128 .bf16) = w1b (m ((c.tc : Thread nD τ).loc main_arg2)) :=
  (congrFun (V0_eq m c) _).trans (s2_v30 _ _ (B_arg2 m c))
/-- Its fourth operand: the second weight matrix. -/
theorem V_v31 : (Gen.V m c main_v31 : Arr S128x64 .bf16) = w2b (m ((c.tc : Thread nD τ).loc main_arg4)) :=
  (congrFun (V0_eq m c) _).trans (s2_v31 _ _ (B_arg4 m c))

/-- What the operations after the Pallas call leave in the program's result buffer. -/
theorem tail_v49 :
    (Pipeline.afterTail₀ cfgs (Gen.dats m) 0 (Gen.V0 m) [Gen.hostOps1] c main_v49 : Arr S50000x64)
      = post ((Gen.dats m 0 c).arrAt 4 cfg0.N) (m ((c.tc : Thread nD τ).loc main_arg1)) (m ((c.tc : Thread nD τ).loc main_arg5)) := by
  unfold Pipeline.afterTail₀
  show (StableHlo.after (Gen.hostOps1 (F := Ideal)) _ (Proc.devRef .tc main_v49) : Arr S50000x64) = _
  exact tail_of _ _ _ _
    (Pipeline.withArrays_arr spec0 Gen.launch0.win.arr_inj c _ _ 4)
    ((Pipeline.withArrays_of_ne _ c (Gen.V0 m c) _ main_v3 (by exact (by decide : ∀ w, Pipeline.arrRef spec0 w ≠ main_v3))).trans (V0_v3 m c))
    ((Pipeline.withArrays_of_ne _ c (Gen.V0 m c) _ main_v6 (by exact (by decide : ∀ w, Pipeline.arrRef spec0 w ≠ main_v6))).trans (V0_v6 m c))
    ((Pipeline.withArrays_of_ne _ c (Gen.V0 m c) _ main_v15 (by exact (by decide : ∀ w, Pipeline.arrRef spec0 w ≠ main_v15))).trans (V0_v15 m c))
    ((Pipeline.withArrays_of_ne _ c (Gen.V0 m c) _ main_arg5 (by exact (by decide : ∀ w, Pipeline.arrRef spec0 w ≠ main_arg5))).trans (Gen.V_main_arg5 m c))

end Entry

/-- The program's result buffer after the tail, as `term` of the arguments, given that the Pallas call leaves
    `relu (a · W1 + b1) · W2` of its operands, row by row. -/
theorem result_of (m : (ℓ : Loc nD τ sig) → Buf (Elt Ideal) ℓ) (c : Dev nD)
    (hcall : (Gen.dats m 0 c).arrAt 4 cfg0.N = mlpG (Gen.V m c main_v29) (Gen.V m c main_v30) (Gen.V m c main_arg3) (Gen.V m c main_v31)) :
    (Pipeline.afterTail₀ cfgs (Gen.dats m) 0 (Gen.V0 m) [Gen.hostOps1] c main_v49 : Arr S50000x64)
      = term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [tail_v49, hcall, V_v29, V_v30, V_v31, Gen.V_main_arg3]
  rfl

/-- The program's run, given what the Pallas call leaves: it ends with `term` of its arguments in its result buffer,
    and its arguments as given. -/
theorem run_of (m : (ℓ : Loc nD τ sig) → Buf (Elt Ideal) ℓ) (ρ : Dev nD → PrngReg)
    (hcall : ∀ c : Dev nD, (Gen.dats m 0 c).arrAt 4 cfg0.N
      = mlpG (Gen.V m c main_v29) (Gen.V m c main_v30) (Gen.V m c main_arg3) (Gen.V m c main_v31)) :
    θ_run (defs (F := Ideal)) (onTc (τ := τ) (main (F := Ideal))) ⟨m, fun _ => 0, ρ⟩ (fun r => ∀ c : Dev nD,
      r.2.mem ((c.tc : Thread nD τ).loc main_v49)
          = term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v49 (Pipeline.mem_restRefs_of main_v49 (by decide) (by decide))).trans (result_of m c (hcall c)),
      (((h c).2 main_arg0 (Pipeline.mem_restRefs_of main_arg0 (by decide) (by decide))).trans (Gen.W_main_arg0 m (Gen.dats m) c)),
      (((h c).2 main_arg1 (Pipeline.mem_restRefs_of main_arg1 (by decide) (by decide))).trans (Gen.W_main_arg1 m (Gen.dats m) c)),
      (((h c).2 main_arg2 (Pipeline.mem_restRefs_of main_arg2 (by decide) (by decide))).trans (Gen.W_main_arg2 m (Gen.dats m) c)),
      ((h c).1 2).trans (((Gen.dats m 0 c).arrAt_in 2 rfl _).trans ((Gen.A_eq m c 2).trans (Gen.V_main_arg3 m c))),
      (((h c).2 main_arg4 (Pipeline.mem_restRefs_of main_arg4 (by decide) (by decide))).trans (Gen.W_main_arg4 m (Gen.dats m) c)),
      (((h c).2 main_arg5 (Pipeline.mem_restRefs_of main_arg5 (by decide) (by decide))).trans (Gen.W_main_arg5 m (Gen.dats m) c))⟩)
    (Gen.run_main m ρ)

end Cert.KernelIdeal.KV

end
-- ==== Proof.KRun.lean ====
/-
  The kernel program's run, with its result named as one term of the six argument arrays.

  The Pallas call leaves `relu (a · W1 + b1) · W2` of its operands, row by row; with what the host operations before and
  after it compute, the program's result is `term` of its arguments.
-/
import proofs.«101030_j23630910062676_2_alg».proof.Proof.Gen.KernelIdeal.Frame
import proofs.«101030_j23630910062676_2_alg».proof.Proof.KDefs
import proofs.«101030_j23630910062676_2_alg».proof.Proof.KBlocks
import proofs.«101030_j23630910062676_2_alg».proof.Proof.KEntry

noncomputable section

namespace Cert.KernelIdeal.KV

open Cert.KernelIdeal Cert.KernelIdeal.Gen Idealize.ShloMosaic Idealize.SL.Sem

/-- The program's run: it ends with `term` of its arguments in its result buffer, and its arguments as given. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v49)
          = term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_of m ρ (final4 m)

end Cert.KernelIdeal.KV

end
-- ==== Proof.LibERealSum.lean ====
/-
  General laws of finite sums of extended reals, with no finiteness asked of the terms.
  Multiplication on the extended reals does not distribute over addition in general (∞ - ∞), but a factor
  that is nonnegative and not +∞ does, on either side; so such a factor moves across any finite sum. This
  is what lets a scale folded into one operand of a contraction (x · c inside the sum) meet the same scale
  applied to the contraction's result (the sum times c, or the sum divided by 1/c) without a precondition
  on the inputs. Also: a sum over `Fin (m * n)` as a double sum over `m` blocks of `n`.
-/
import Mathlib.Data.EReal.Operations
import Mathlib.Algebra.BigOperators.Fin
import Mathlib.Logic.Equiv.Fin.Basic

namespace Cert.Lib.ERealSum

open scoped BigOperators

/-- A nonnegative finite factor on the right moves across a finite sum of extended reals. -/
theorem sum_mul_const {ι : Type*} (t : Finset ι) (f : ι → EReal) {c : EReal} (h0 : 0 ≤ c) (ht : c ≠ ⊤) :
    (∑ k ∈ t, f k) * c = ∑ k ∈ t, f k * c := by
  classical
  induction t using Finset.induction_on with
  | empty => simp
  | insert a t ha ih =>
    rw [Finset.sum_insert ha, Finset.sum_insert ha, EReal.right_distrib_of_nonneg_of_ne_top h0 ht, ih]

/-- The same with the factor on the left. -/
theorem mul_sum_const {ι : Type*} (t : Finset ι) (f : ι → EReal) {c : EReal} (h0 : 0 ≤ c) (ht : c ≠ ⊤) :
    c * (∑ k ∈ t, f k) = ∑ k ∈ t, c * f k :=
  (EReal.mul_comm _ _).trans
    ((sum_mul_const t f h0 ht).trans (Finset.sum_congr rfl fun k _ => EReal.mul_comm _ _))

/-- A sum over `Fin (m * n)` is the sum over the `m` blocks of the sums over their `n` entries: entry `i` of
    block `c` is position `i + n * c`. -/
theorem sum_fin_blocks {M : Type*} [AddCommMonoid M] (m n : ℕ) (f : Fin (m * n) → M) :
    ∑ j : Fin (m * n), f j = ∑ c : Fin m, ∑ i : Fin n, f (finProdFinEquiv (c, i)) := by
  rw [← Equiv.sum_comp (finProdFinEquiv (m := m) (n := n)) f, Fintype.sum_prod_type]

end Cert.Lib.ERealSum
-- ==== Proof.GcnSpec.lean ====
/-
  Two ways to compute a two-layer graph convolution, and why they agree.

  A graph on N nodes is given by M edges: edge e takes from node `g e` and adds into every node p with e ∈ L p
  (at most one). Each node has a weight `δ p` (the inverse square root of its degree). One layer sends a row
  array X to  Y p = Σ_{e ∈ L p} X (g e) · δ (g e) · δ p.

  `outR` multiplies by the weight matrix first and then sums over the edges with the edge weight δ (g e) · δw e,
  where δw e is the target's weight; `outK` scales the rows by δ, sums over the edges, scales by δ again and only then
  multiplies by the first weight matrix, and for the second layer multiplies first and scales around the sum.
  Both are the same numbers when the entries of X, W1 and δ are real: the sums are finite, so a product moves across
  them (this fails at an infinite entry, where 0 · ∞ appears). For the second layer only δ need be real and
  nonnegative: such a factor moves across a finite sum of any extended reals.
-/
import Mathlib.Data.EReal.Operations
import Mathlib.Data.EReal.Inv
import Mathlib.Algebra.BigOperators.Fin
import Mathlib.Algebra.BigOperators.Ring.Finset
import Mathlib.Tactic.Ring
import proofs.«101030_j23630910062676_2_alg».proof.Proof.LibERealSum

noncomputable section

open scoped BigOperators

namespace Cert.Gcn

variable {N M A B C : ℕ}

/-- The hidden layer, aggregating first: relu ((δ-scaled sum over the edges of the δ-scaled rows of x) · W1 + b1). -/
def hidK (g : Fin M → Fin N) (L : Fin N → Finset (Fin M)) (δ : Fin N → EReal) (x : Fin N → Fin A → EReal)
    (W1 : Fin A → Fin B → EReal) (b1 : Fin B → EReal) (q : Fin N) (k : Fin B) : EReal :=
  max ((∑ i, ((0 + ∑ e ∈ L q, x (g e) i * δ (g e)) * δ q) * W1 i k) + b1 k) 0

/-- The result, multiplying by W2 first and scaling by δ around the sum over the edges. -/
def outK (g : Fin M → Fin N) (L : Fin N → Finset (Fin M)) (δ : Fin N → EReal) (x : Fin N → Fin A → EReal)
    (W1 : Fin A → Fin B → EReal) (b1 : Fin B → EReal) (W2 : Fin B → Fin C → EReal) (b2 : Fin C → EReal)
    (n : Fin N) (j : Fin C) : EReal :=
  (0 + ∑ e ∈ L n, (∑ k, hidK g L δ x W1 b1 (g e) k * W2 k j) * δ (g e)) * δ n + b2 j

/-- The hidden layer, multiplying first: relu (sum over the edges of (x · W1)'s rows times the edge weight, + b1). -/
def hidR (g : Fin M → Fin N) (L : Fin N → Finset (Fin M)) (δ : Fin N → EReal) (δw : Fin M → EReal)
    (x : Fin N → Fin A → EReal) (W1 : Fin A → Fin B → EReal) (b1 : Fin B → EReal) (q : Fin N) (k : Fin B) : EReal :=
  max ((0 + ∑ e ∈ L q, (∑ i, x (g e) i * W1 i k) * (δ (g e) * δw e)) + b1 k) 0

/-- The result, with the edge weight inside the sum over the edges. -/
def outR (g : Fin M → Fin N) (L : Fin N → Finset (Fin M)) (δ : Fin N → EReal) (δw : Fin M → EReal)
    (x : Fin N → Fin A → EReal) (W1 : Fin A → Fin B → EReal) (b1 : Fin B → EReal) (W2 : Fin B → Fin C → EReal)
    (b2 : Fin C → EReal) (n : Fin N) (j : Fin C) : EReal :=
  (0 + ∑ e ∈ L n, (∑ k, hidR g L δ δw x W1 b1 (g e) k * W2 k j) * (δ (g e) * δw e)) + b2 j

/-- The inclusion of the reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Over the reals a matrix product moves across the weighted sum over the edges. -/
theorem real_layer {ι : Type*} (s : Finset ι) (xr : ι → Fin A → ℝ) (c : ι → ℝ) (d : ℝ) (w : Fin A → ℝ) :
    ∑ i, ((∑ e ∈ s, xr e i * c e) * d) * w i = ∑ e ∈ s, (∑ i, xr e i * w i) * (c e * d) := by
  simp_rw [Finset.sum_mul]
  rw [Finset.sum_comm]
  refine Finset.sum_congr rfl fun e _ => Finset.sum_congr rfl fun i _ => ?_
  ring

variable (g : Fin M → Fin N) (L : Fin N → Finset (Fin M)) (δ : Fin N → EReal) (δw : Fin M → EReal)
  (x : Fin N → Fin A → EReal) (W1 : Fin A → Fin B → EReal) (b1 : Fin B → EReal)
  (W2 : Fin B → Fin C → EReal) (b2 : Fin C → EReal)

/-- The two hidden layers agree when x, W1 and δ are real and δw is the target's weight. -/
theorem hid_eq (hδw : ∀ p, ∀ e ∈ L p, δw e = δ p) (hx : ∀ p i, ∃ r : ℝ, x p i = r)
    (hW : ∀ i k, ∃ r : ℝ, W1 i k = r) (hδ : ∀ p, ∃ r : ℝ, δ p = r) (q : Fin N) (k : Fin B) :
    hidK g L δ x W1 b1 q k = hidR g L δ δw x W1 b1 q k := by
  choose xr hxr using hx
  choose wr hwr using hW
  choose dr hdr using hδ
  unfold hidK hidR
  have hR : ∑ e ∈ L q, (∑ i, x (g e) i * W1 i k) * (δ (g e) * δw e)
      = ∑ e ∈ L q, (∑ i, x (g e) i * W1 i k) * (δ (g e) * δ q) :=
    Finset.sum_congr rfl fun e he => by rw [hδw q e he]
  rw [hR]
  have key : (∑ i, ((0 + ∑ e ∈ L q, x (g e) i * δ (g e)) * δ q) * W1 i k)
      = 0 + ∑ e ∈ L q, (∑ i, x (g e) i * W1 i k) * (δ (g e) * δ q) := by
    simp only [zero_add, hxr, hwr, hdr, ← EReal.coe_mul, ← coe_sum]
    exact congrArg _ (real_layer (L q) (fun e i => xr (g e) i) (fun e => dr (g e)) (dr q) (fun i => wr i k))
  rw [key]

/-- The two results agree when moreover δ is nonnegative. -/
theorem out_eq (hδw : ∀ p, ∀ e ∈ L p, δw e = δ p) (hx : ∀ p i, ∃ r : ℝ, x p i = r)
    (hW : ∀ i k, ∃ r : ℝ, W1 i k = r) (hδ : ∀ p, ∃ r : ℝ, 0 ≤ r ∧ δ p = r) (n : Fin N) (j : Fin C) :
    outK g L δ x W1 b1 W2 b2 n j = outR g L δ δw x W1 b1 W2 b2 n j := by
  have hδ' : ∀ p, ∃ r : ℝ, δ p = r := fun p => let ⟨r, _, h⟩ := hδ p; ⟨r, h⟩
  obtain ⟨r, hr0, hr⟩ := hδ n
  have h0 : (0 : EReal) ≤ δ n := by rw [hr]; exact EReal.coe_nonneg.mpr hr0
  have ht : δ n ≠ ⊤ := by rw [hr]; exact EReal.coe_ne_top r
  unfold outK outR
  refine congrArg (· + b2 j) ?_
  rw [zero_add, zero_add, Cert.Lib.ERealSum.sum_mul_const _ _ h0 ht]
  refine Finset.sum_congr rfl fun e he => ?_
  rw [hδw n e he]
  refine (mul_assoc _ (δ (g e)) (δ n)).trans ?_
  refine congrArg (· * (δ (g e) * δ n)) ?_
  refine Finset.sum_congr rfl fun k _ => ?_
  rw [hid_eq g L δ δw x W1 b1 hδw hx hW hδ']

end Cert.Gcn

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.KReadAgg.lean ====
/-
  The kernel program's aggregation read at one entry.

  A column broadcast reads the vector's entry of the row; the accumulating scatter reads the operand's entry plus the
  sum of the update rows sent to the row; the row gather reads the operand's row named by the source word. So the
  aggregation of `v` at (p, k) is the sum, over the edges whose target is `p`, of `v` at the edge's source row.
-/
import proofs.«101030_j23630910062676_2_alg».proof.Proof.KDefs
import proofs.«101030_j23630910062676_2_alg».proof.Proof.LibRowTakeAdd
import proofs.«101030_j23630910062676_2_alg».proof.Proof.LibKeepdims

noncomputable section

open scoped BigOperators

namespace Cert.KernelIdeal.KV

open Cert.KernelIdeal Cert.KernelIdeal.Facts₀ Cert.KernelIdeal.Facts Idealize.ShloMosaic Idealize.ShloMosaic.ValueIdx

/-- The column of weights at row `p` is the weight of node `p`. -/
theorem dinvcol_apply (ei : IArr S2x800000) (p : Fin 50000) (z : Fin 1) : dinvcol ei (ix2 p z) = δK ei p :=
  Cert.Keepdims.host_column_apply (dinv ei) bcast_S50000_S50000x1_0 p z

/-- The weights repeated along the columns: at (p, q) the weight of node `p`. -/
theorem dinvfull_apply (ei : IArr S2x800000) (p : Fin 50000) (q : Fin 64) : dinvfull ei (ix2 p q) = δK ei p :=
  (Cert.Keepdims.host_column_repeat_apply (dinvcol ei) bcast_S50000x1_S50000x64_0_1 p q).trans (dinvcol_apply ei p 0)

/-- The array the aggregation starts from is 0 everywhere. -/
theorem zeros_apply (i : S50000x64.Idx) :
    broadcastInDim S50000x64 ![] bcast_S_S50000x64 (constant (F := Ideal) S_ .f32 0x00000000#32) i = (0 : EReal) :=
  Ideal.ofBits_zero_f32

/-- The aggregation at (p, k): the sum, over the edges whose target is `p`, of `v` at the edge's source row. -/
theorem aggregate_apply (v : Arr S50000x64) (ei : IArr S2x800000) (p : Fin 50000) (k : Fin 64) :
    aggregate v ei (ix2 p k) = (0 : EReal) + ∑ e ∈ LK ei p, v (ix2 (gK ei e) k) := by
  have h := Cert.RowTakeAdd.scatterAdd_rows_apply (N := 50000) (R := 850000) (C := 64) (φ := .f32)
    scatter_S50000x64_S850000x1_S850000x64_1_0_0_1_wf
    (broadcastInDim S50000x64 ![] bcast_S_S50000x64 (constant (F := Ideal) S_ .f32 0x00000000#32)) (dcol ei)
    (Host.gather gather_S50000x64_S850000x1_S850000x64_1_0_n_n_0_1_164 v (scol ei)) p k
  refine h.trans ?_
  rw [zeros_apply]
  refine congrArg (fun t => (0 : EReal) + t) (Finset.sum_congr rfl fun e _ => ?_)
  exact Cert.RowTakeAdd.gather_rows_apply (N := 50000) (R := 850000) (C := 64) (by decide)
    gather_S50000x64_S850000x1_S850000x64_1_0_n_n_0_1_164_wf v (scol ei) e k

end Cert.KernelIdeal.KV

end
-- ==== Proof.LibHostForms.lean ====
/-
  Host-side readings at an entry (p, q), on the extended reals and for variable extents.

  A bias kept as a row: the host's broadcast of a vector [b] to a row [1, b] along axis 1 reads at (0, q) the entry q,
  and its broadcast of a row [1, b] to [a, b] reads at (p, q) the row's entry (0, q).  And the host's ordinary matrix
  product — an [a, n] array times an [n, b] array, contracting the second axis of the left with the first of the right,
  no batch axis — is at (p, q) the sum over k of left (p, k) · right (k, q).
-/
import Idealize.ShloMosaic.Lib.Pipeline.Value
import Idealize.ShloMosaic.Lib.ValueIdx
import Idealize.ShloMosaic.PureOps.Ideal.Laws
import proofs.«101030_j23630910062676_2_alg».proof.Proof.LibPlainMatmul

noncomputable section

open scoped BigOperators

namespace Cert.HostForms

open Idealize.ShloMosaic Idealize.ShloMosaic.ValueIdx

variable {α : Type}

/-- The host's broadcast of a vector [b] to a row [1, b] along axis 1 reads, at (z, q), its entry `q`. -/
theorem host_row_apply {b : ℕ} (v : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h v (ix2 z q) = v (ix1 q) := by
  refine broadcastInDim_apply _ h v (ix2 z q) (ix1 q) fun ax => ?_
  match ax with
  | ⟨0, _⟩ =>
    show q.val = if b = 1 then 0 else q.val
    split
    · have := q.isLt; omega
    · rfl

/-- The host's broadcast of a row [1, b] to [a, b] reads, at (p, q), the row's entry of column `q`. -/
theorem host_row_repeat_apply {a b : ℕ} (u : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h u (ix2 p q) = u (ix2 (0 : Fin 1) q) := by
  refine broadcastInDim_apply _ h u (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- The host's ordinary product: at (p, q) the sum over k of left (p, k) · right (k, q). -/
theorem host_product_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    Host.dotGeneral (F := Ideal) (Cert.PlainMatmul.dims wf) prec L R (ix2 p q)
      = ∑ k : Fin n, L (ix2 p k) * R (ix2 k q) := by
  simp only [Host.dotGeneral]
  rw [Ideal.dotGeneral_apply, ← Equiv.sum_comp (contrEquiv1 (Cert.PlainMatmul.dims wf) n rfl rfl).symm]
  refine Finset.sum_congr rfl fun k _ => ?_
  have hk := contrEquiv1_symm_val (Cert.PlainMatmul.dims wf) n rfl rfl k
  have el : (Cert.PlainMatmul.dims wf).lhsIdx (ix2 p q) ((contrEquiv1 (Cert.PlainMatmul.dims wf) n rfl rfl).symm k) = ix2 p k :=
    funext fun ax => Fin.ext (by
      match ax with
      | ⟨0, _⟩ => rfl
      | ⟨1, _⟩ => exact ((Cert.PlainMatmul.dims wf).lhsIdx_val_of_single rfl _ _).trans hk)
  have er : (Cert.PlainMatmul.dims wf).rhsIdx (ix2 p q) ((contrEquiv1 (Cert.PlainMatmul.dims wf) n rfl rfl).symm k) = ix2 k q :=
    funext fun ax => Fin.ext (by
      match ax with
      | ⟨0, _⟩ => exact ((Cert.PlainMatmul.dims wf).rhsIdx_val_of_single rfl _ _).trans hk
      | ⟨1, _⟩ => rfl)
  rw [el, er]

end Cert.HostForms

end
-- ==== Proof.KRead.lean ====
/-
  The kernel program's result term read at one entry.

  With the aggregation read at an index (the sum, over the edges whose target is the row, of the operand at the
  edge's source row), the scalings by the node weights and the bias broadcast read entry by entry, and the kernel
  call's result is `relu (a · W1 + b1) · W2` row by row. Put together, entry (n, j) of the result is the two-layer
  graph-convolution formula `Cert.Gcn.outK` over the edges' source rows `gK`, the target lists `LK` and the node
  weights `δK`.
-/
import proofs.«101030_j23630910062676_2_alg».proof.Proof.KDefs
import proofs.«101030_j23630910062676_2_alg».proof.Proof.GcnSpec
import proofs.«101030_j23630910062676_2_alg».proof.Proof.KReadAgg
import proofs.«101030_j23630910062676_2_alg».proof.Proof.LibHostForms

noncomputable section

open scoped BigOperators

namespace Cert.KernelIdeal.KV

open Cert.KernelIdeal Cert.KernelIdeal.Facts₀ Cert.KernelIdeal.Facts Idealize.ShloMosaic Idealize.ShloMosaic.ValueIdx

/-- The first aggregation, scaled before and after, at (p, i). -/
theorem agg1_apply (x : Arr S50000x64) (ei : IArr S2x800000) (p : Fin 50000) (i : Fin 64) :
    agg1 x ei (ix2 p i) = ((0 : EReal) + ∑ e ∈ LK ei p, x (ix2 (gK ei e) i) * δK ei (gK ei e)) * δK ei p := by
  rw [agg1, mulf_apply, aggregate_apply, dinvfull_apply]
  refine congrArg (fun t => ((0 : EReal) + t) * δK ei p) (Finset.sum_congr rfl fun e _ => ?_)
  rw [mulf_apply, dinvfull_apply]

/-- The kernel call's result at (p, q). -/
theorem mlpG_apply (a : Arr S50000x64) (w1 : Arr S64x128 .bf16) (b : Arr S128) (w2 : Arr S128x64 .bf16) (p : Fin 50000) (q : Fin 64) :
    mlpG a w1 b w2 (ix2 p q) = mlpAt a w1 b w2 p q := rfl

/-- What follows the kernel call, at (n, j). -/
theorem post_apply (t2 : Arr S50000x64) (ei : IArr S2x800000) (b2 : Arr S64) (n : Fin 50000) (j : Fin 64) :
    post t2 ei b2 (ix2 n j)
      = ((0 : EReal) + ∑ e ∈ LK ei n, t2 (ix2 (gK ei e) j) * δK ei (gK ei e)) * δK ei n + b2 (ix1 j) := by
  rw [post, addf_apply, mulf_apply, aggregate_apply, dinvfull_apply,
    Cert.HostForms.host_row_repeat_apply (broadcastInDim S1x64 ![1] bcast_S64_S1x64_1 b2) bcast_S1x64_S50000x64_0_1 n j,
    Cert.HostForms.host_row_apply b2 bcast_S64_S1x64_1 0 j]
  refine congrArg (fun t => ((0 : EReal) + t) * δK ei n + b2 (ix1 j)) (Finset.sum_congr rfl fun e _ => ?_)
  rw [mulf_apply, dinvfull_apply]

/-- Entry (n, j) of the program's result is the two-layer formula over the edges' source rows, target lists and node weights. -/
theorem term_apply (x : Arr S50000x64) (ei : IArr S2x800000) (w1 : Arr S64x128) (b1 : Arr S128) (w2 : Arr S128x64) (b2 : Arr S64) (n : Fin 50000) (j : Fin 64) :
    term x ei w1 b1 w2 b2 (ix2 n j)
      = Cert.Gcn.outK (gK ei) (LK ei) (δK ei) (fun p i => x (ix2 p i)) (fun i k => w1 (ix2 i k)) (fun k => b1 (ix1 k))
          (fun k j => w2 (ix2 k j)) (fun j => b2 (ix1 j)) n j := by
  rw [term, post_apply]
  unfold Cert.Gcn.outK
  refine congrArg (fun t => ((0 : EReal) + t) * δK ei n + b2 (ix1 j)) (Finset.sum_congr rfl fun e _ => ?_)
  rw [mlpG_apply, mlpAt]
  refine congrArg (fun t => t * δK ei (gK ei e)) (Finset.sum_congr rfl fun k _ => ?_)
  unfold Cert.Gcn.hidK
  rw [w2b, truncf_apply]
  refine congrArg (fun t => max (t + b1 (ix1 k)) 0 * w2 (ix2 k j)) (Finset.sum_congr rfl fun i _ => ?_)
  rw [agg1_apply, w1b, truncf_apply]

end Cert.KernelIdeal.KV

end
-- ==== Proof.RDefs.lean ====
/-
  The reference program's graph data, read off its index columns: for each edge the node it takes from, for each
  node the edges that add into it, each node's weight, and the weight the reference looks up at an edge's target.
-/
import proofs.«101030_j23630910062676_2_alg».proof.Proof.RefReadP
import proofs.«101030_j23630910062676_2_alg».proof.Proof.LibRowTakeAdd

noncomputable section

namespace Cert.ReferenceIdeal.RV

open Cert.ReferenceIdeal Cert.ReferenceIdeal.ReadP Idealize.ShloMosaic Idealize.ShloMosaic.ValueIdx

/-- A float array of shape `S` at the exact real instance. -/
abbrev Arr (S : Shape) (φ : FTy := .f32) := FVec Ideal S φ
/-- A 32-bit integer array of shape `S`. -/
abbrev IArr (S : Shape) := IVec S 32

/-- The node an edge takes its row from: its source word (a negative one moved up by the number of nodes) read signed
    and clamped into the node range. -/
def gR (x1 : IArr S2x800000) (e : Fin 850000) : Fin 50000 :=
  Cert.RowTakeAdd.takeRow 50000 (by decide) (val_main_v20 (F := Ideal) x1 (ix2 e (0 : Fin 1)))

/-- The edges whose target word, read signed, is the node `p`: those that add into row `p`. -/
def LR (x1 : IArr S2x800000) (p : Fin 50000) : Finset (Fin 850000) :=
  Finset.univ.filter (fun e : Fin 850000 => (val_main_v9 (F := Ideal) x1 (ix2 e (0 : Fin 1))).toInt = (p.val : Int))

/-- The weight of node `p`: the inverse square root of its degree, 0 where the degree is not positive. -/
def δR (x1 : IArr S2x800000) (p : Fin 50000) : EReal := val_main_v14 (F := Ideal) x1 (ix1 p)

/-- The weight the reference looks up for edge `e`'s target: at the target word (a negative one moved up by the number
    of nodes) read signed and clamped into the node range. -/
def δwR (x1 : IArr S2x800000) (e : Fin 850000) : EReal :=
  val_main_v14 (F := Ideal) x1 (ix1 (Cert.RowTakeAdd.takeRow 50000 (by decide) (val_main_v27 (F := Ideal) x1 (ix2 e (0 : Fin 1)))))

end Cert.ReferenceIdeal.RV

end
-- ==== Proof.LibFlatTakePut.lean ====
/-
  Taking from and putting into a flat array at a column of index words.

  What x[idx] and x.at[idx].set(v) of a flat array x : [N] at an integer vector idx : [R] lower to, once the index
  vector is seen as a column [R, 1]: a gather, and a scatter, with one index component per row.

  The gather reads, for result position r, the operand at the word idx[r, 0] taken as a signed integer and clamped
  into [0, N - 1]. The scatter sends update position r to the operand position idx[r, 0], taken as a signed integer
  and not clamped; the update is dropped when that integer is not a position of the operand. So when the word denotes,
  as a signed integer, a position k of the operand, the update at r lands at k.
-/
import Idealize.ShloMosaic.Lib.ValueIdx

noncomputable section

namespace Cert.FlatTakePut

open Idealize.ShloMosaic Idealize.ShloMosaic.ValueIdx

/-- The index [r, 0] of the column of words, for position r of the vector. -/
abbrev colIdx {R : Nat} (j : (⟨1, ![R]⟩ : Shape).Idx) : (⟨2, ![R, 1]⟩ : Shape).Idx :=
  fun a => match a with | ⟨0, _⟩ => ⟨(j 0).val, (j 0).isLt⟩ | ⟨1, _⟩ => ⟨0, Nat.one_pos⟩

section Take
variable {α : Type}

/-- The gather's dimension numbers for an operand [N], start indices [R, 1] and result [R]. -/
abbrev takeFlatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at position `j`: the operand at the word `idx[j, 0]`, read signed and clamped into [0, N - 1]. -/
theorem gather_flat_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (j : (⟨1, ![R]⟩ : Shape).Idx) :
    Host.gather (takeFlatDims N R wf) x idx j = x (ix1 ⟨min (idx (colIdx j)).toInt.toNat (N - 1), by omega⟩) := by
  unfold Host.gather
  refine congrArg x ?_
  funext a
  obtain rfl : a = 0 := Subsingleton.elim _ _
  refine Fin.ext ?_
  show (takeFlatDims N R wf).start j idx 0 + (takeFlatDims N R wf).batchCoord j 0 + (takeFlatDims N R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeFlatDims N R wf).startIndexMap from List.mem_singleton.mpr rfl)]
  have hsi : (takeFlatDims N R wf).siIdx j ⟨List.idxOf (0 : Fin 1) (takeFlatDims N R wf).startIndexMap,
      List.idxOf_lt_length_iff.2 (List.mem_singleton.mpr rfl)⟩ = colIdx j := by
    funext b; refine Fin.ext ?_
    match b with
    | ⟨0, _⟩ => rfl
    | ⟨1, _⟩ => rfl
  rw [hsi]
  rfl

end Take

section Put

/-- The scatter's dimension numbers for an operand [N], scatter indices [R, 1] and updates [R]. -/
abbrev putFlatDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Where update `j` lands: when the word `idx[j, 0]`, read signed, is the position `k` of the operand, at `k`. -/
theorem resultIdx_flat {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (k : Fin N)
    (hk : (idx (colIdx j)).toInt = (k.val : Int)) :
    (putFlatDims N R wf).resultIdx? j idx = some (ix1 k) := by
  have hs : ∀ a : Fin 1, (putFlatDims N R wf).start j idx a + ((putFlatDims N R wf).window j a : Int) = (k.val : Int) := by
    intro a
    obtain rfl : a = 0 := Subsingleton.elim _ _
    have hw : (putFlatDims N R wf).window j 0 = 0 := by
      unfold ScatterDims.window
      rw [dif_neg]
      intro h
      have := (List.mem_filter.1 h).2
      simp at this
    have hst : (putFlatDims N R wf).start j idx 0 = (k.val : Int) := by
      unfold ScatterDims.start
      rw [dif_pos (show (0 : Fin 1) ∈ (putFlatDims N R wf).scatterDimsToOperandDims from List.mem_singleton.mpr rfl)]
      have hsi : (putFlatDims N R wf).siIdx j ⟨List.idxOf (0 : Fin 1) (putFlatDims N R wf).scatterDimsToOperandDims,
          List.idxOf_lt_length_iff.2 (List.mem_singleton.mpr rfl)⟩ = colIdx j := by
        funext b; refine Fin.ext ?_
        match b with
        | ⟨0, _⟩ => rfl
        | ⟨1, _⟩ => rfl
      rw [hsi, hk]
    rw [hst, hw]
    simp
  unfold ScatterDims.resultIdx?
  have hin : ∀ a : Fin 1, 0 ≤ (putFlatDims N R wf).start j idx a + ((putFlatDims N R wf).window j a : Int)
      ∧ (putFlatDims N R wf).start j idx a + ((putFlatDims N R wf).window j a : Int) < ((⟨1, ![N]⟩ : Shape).size a : Int) := by
    intro a
    rw [hs a]
    obtain rfl : a = 0 := Subsingleton.elim _ _
    exact ⟨Int.natCast_nonneg _, by exact_mod_cast k.isLt⟩
  rw [dif_pos hin]
  refine congrArg some ?_
  funext a
  obtain rfl : a = 0 := Subsingleton.elim _ _
  refine Fin.ext ?_
  show ((putFlatDims N R wf).start j idx 0 + ((putFlatDims N R wf).window j 0 : Int)).toNat = k.val
  rw [hs 0]
  exact Int.toNat_natCast _

end Put

end Cert.FlatTakePut

end
-- ==== Proof.RRead.lean ====
/-
  The reference program's result, read at one entry.

  The reference computes a two-layer graph convolution by multiplying the rows by the weight matrix first, taking for
  each edge the row of its source node, scaling it by the edge's weight (the source's weight times the weight looked
  up at the target word), and adding the scaled rows into the target nodes; then the bias is added and, after the
  first layer, negative entries are replaced by 0. Reading each stage at explicit coordinates, from the edge weights
  up to the last addition, gives the closed form `Cert.Gcn.outR`: the entry (n, j) of the result is outR at (n, j).
-/
import proofs.«101030_j23630910062676_2_alg».proof.Proof.RDefs
import proofs.«101030_j23630910062676_2_alg».proof.Proof.GcnSpec
import proofs.«101030_j23630910062676_2_alg».proof.Proof.LibRowTakeAdd
import proofs.«101030_j23630910062676_2_alg».proof.Proof.LibFlatTakePut

noncomputable section

open scoped BigOperators

namespace Cert.ReferenceIdeal.RV

open Cert.ReferenceIdeal Cert.ReferenceIdeal.ReadP Idealize.ShloMosaic Idealize.ShloMosaic.ValueIdx
open Cert.ReferenceIdeal.Facts₀

/-! ## The index columns and the dimension records -/

/-- The column of words of position e of a vector is the index (e, 0). -/
theorem colIdx_ix1 {R : Nat} (e : Fin R) : Cert.FlatTakePut.colIdx (ix1 e) = ix2 e (0 : Fin 1) := by
  funext a
  match a with
  | ⟨0, _⟩ => rfl
  | ⟨1, _⟩ => rfl

/-- The source column is computed three times by the program, by the same operations each time. -/
theorem v36_eq (x1 : IArr S2x800000) : val_main_v36 (F := Ideal) x1 = val_main_v20 (F := Ideal) x1 := rfl
theorem v54_eq (x1 : IArr S2x800000) : val_main_v54 (F := Ideal) x1 = val_main_v20 (F := Ideal) x1 := rfl
/-- The target column likewise. -/
theorem v42_eq (x1 : IArr S2x800000) : val_main_v42 (F := Ideal) x1 = val_main_v9 (F := Ideal) x1 := rfl
theorem v60_eq (x1 : IArr S2x800000) : val_main_v60 (F := Ideal) x1 = val_main_v9 (F := Ideal) x1 := rfl

/-- The program's gather of a flat array at a column of words is the flat take. -/
theorem gdims_flat : gather_S50000_S850000x1_S850000_n_0_n_n_0_1_1
    = Cert.FlatTakePut.takeFlatDims 50000 850000 gather_S50000_S850000x1_S850000_n_0_n_n_0_1_1_wf := rfl
/-- The program's gathers of rows are the row take. -/
theorem gdims_128 : gather_S50000x128_S850000x1_S850000x128_1_0_n_n_0_1_1128
    = Cert.RowTakeAdd.rowGatherDims 50000 850000 128 gather_S50000x128_S850000x1_S850000x128_1_0_n_n_0_1_1128_wf := rfl
theorem gdims_64 : gather_S50000x64_S850000x1_S850000x64_1_0_n_n_0_1_164
    = Cert.RowTakeAdd.rowGatherDims 50000 850000 64 gather_S50000x64_S850000x1_S850000x64_1_0_n_n_0_1_164_wf := rfl
/-- The program's accumulating scatters of rows are the row add. -/
theorem sdims_128 : scatter_S50000x128_S850000x1_S850000x128_1_0_0_1
    = Cert.RowTakeAdd.rowScatterDims 50000 850000 128 scatter_S50000x128_S850000x1_S850000x128_1_0_0_1_wf := rfl
theorem sdims_64 : scatter_S50000x64_S850000x1_S850000x64_1_0_0_1
    = Cert.RowTakeAdd.rowScatterDims 50000 850000 64 scatter_S50000x64_S850000x1_S850000x64_1_0_0_1_wf := rfl

/-! ## The edge weight -/

/-- A flat gather of the node weights at a column of words, read at edge e: the weight of the node the word selects. -/
theorem gather_weight (x1 : IArr S2x800000) (idx : IArr S850000x1) (e : Fin 850000) :
    Host.gather gather_S50000_S850000x1_S850000_n_0_n_n_0_1_1 (val_main_v14 (F := Ideal) x1) idx (ix1 e)
      = val_main_v14 (F := Ideal) x1 (ix1 (Cert.RowTakeAdd.takeRow 50000 (by decide) (idx (ix2 e (0 : Fin 1))))) := by
  rw [gdims_flat]
  refine (Cert.FlatTakePut.gather_flat_apply (Nat.succ_pos _) _ _ _ _).trans ?_
  refine congrArg (val_main_v14 (F := Ideal) x1) ?_
  refine congrArg ix1 ?_
  refine Fin.ext ?_
  show min (idx (Cert.FlatTakePut.colIdx (ix1 e))).toInt.toNat (50000 - 1) = min (idx (ix2 e (0 : Fin 1))).toInt.toNat (50000 - 1)
  rw [colIdx_ix1]

/-- The weight gathered at an edge's source word is the weight of the node the edge takes from. -/
theorem v21_apply (x1 : IArr S2x800000) (e : Fin 850000) :
    val_main_v21 (F := Ideal) x1 (ix1 e) = δR x1 (gR x1 e) := by
  unfold val_main_v21
  exact gather_weight x1 _ e

/-- The weight gathered at an edge's target word. -/
theorem v28_apply (x1 : IArr S2x800000) (e : Fin 850000) :
    val_main_v28 (F := Ideal) x1 (ix1 e) = δwR x1 e := by
  unfold val_main_v28
  exact gather_weight x1 _ e

/-- The edge weight: the source's weight times the weight looked up at the target. -/
theorem v29_apply (x1 : IArr S2x800000) (e : Fin 850000) :
    val_main_v29 (F := Ideal) x1 (ix1 e) = δR x1 (gR x1 e) * δwR x1 e := by
  rw [val_main_v29_apply, v21_apply, v28_apply]
  rfl

/-! ## The first layer -/

/-- The rows times the first weight matrix. -/
theorem v30_apply (x0 : Arr S50000x64) (x2 : Arr S64x128) (p : Fin 50000) (k : Fin 128) :
    val_main_v30 (F := Ideal) x0 x2 (ix2 p k) = ∑ i : Fin 64, x0 (ix2 p i) * x2 (ix2 i k) := by
  rw [val_main_v30_apply]
  refine Finset.sum_congr rfl fun i _ => ?_
  have hl : lidx_main_v30 (ix2 p k) i = ix2 p i := funext fun a => by
    match a with
    | ⟨0, _⟩ => rfl
    | ⟨1, _⟩ => rfl
  have hr : ridx_main_v30 (ix2 p k) i = ix2 i k := funext fun a => by
    match a with
    | ⟨0, _⟩ => rfl
    | ⟨1, _⟩ => rfl
  rw [hl, hr]

/-- The row an edge takes: the row of the node it takes from. -/
theorem v37_apply (x0 : Arr S50000x64) (x1 : IArr S2x800000) (x2 : Arr S64x128) (e : Fin 850000) (k : Fin 128) :
    val_main_v37 (F := Ideal) x0 x1 x2 (ix2 e k) = val_main_v30 (F := Ideal) x0 x2 (ix2 (gR x1 e) k) := by
  unfold val_main_v37
  rw [gdims_128, v36_eq]
  exact Cert.RowTakeAdd.gather_rows_apply (Nat.succ_pos _) _ _ _ e k

/-- The edge weight repeated along a row of 128. -/
theorem v39_apply (x1 : IArr S2x800000) (e : Fin 850000) (k : Fin 128) :
    val_main_v39 (F := Ideal) x1 (ix2 e k) = val_main_v29 (F := Ideal) x1 (ix1 e) := by
  rw [val_main_v39_apply, val_main_v38_apply]
  refine congrArg (val_main_v29 (F := Ideal) x1) ?_
  funext a
  match a with
  | ⟨0, _⟩ => rfl

/-- The scaled row of an edge. -/
theorem v40_apply (x0 : Arr S50000x64) (x1 : IArr S2x800000) (x2 : Arr S64x128) (e : Fin 850000) (k : Fin 128) :
    val_main_v40 (F := Ideal) x0 x1 x2 (ix2 e k)
      = (∑ i : Fin 64, x0 (ix2 (gR x1 e) i) * x2 (ix2 i k)) * (δR x1 (gR x1 e) * δwR x1 e) := by
  rw [val_main_v40_apply, v37_apply, v39_apply, v30_apply, v29_apply]
  rfl

/-- The scaled rows added into their target nodes. -/
theorem v43_apply (x0 : Arr S50000x64) (x1 : IArr S2x800000) (x2 : Arr S64x128) (p : Fin 50000) (k : Fin 128) :
    val_main_v43 (F := Ideal) x0 x1 x2 (ix2 p k)
      = 0 + ∑ e ∈ LR x1 p, val_main_v40 (F := Ideal) x0 x1 x2 (ix2 e k) := by
  unfold val_main_v43
  rw [sdims_128, v42_eq]
  refine (Cert.RowTakeAdd.scatterAdd_rows_apply _ _ _ _ p k).trans ?_
  rw [val_main_v41_apply, val_main_cst_8_apply, Ideal.ofBits_def, Ideal.ofBits_zero_f32]
  rfl

/-- The first bias repeated along the nodes. -/
theorem v45_apply (x3 : Arr S128) (p : Fin 50000) (k : Fin 128) :
    val_main_v45 (F := Ideal) x3 (ix2 p k) = x3 (ix1 k) := by
  rw [val_main_v45_apply, val_main_v44_apply]
  refine congrArg x3 ?_
  funext a
  match a with
  | ⟨0, _⟩ => rfl

/-- The hidden layer. -/
theorem v47_apply (x0 : Arr S50000x64) (x1 : IArr S2x800000) (x2 : Arr S64x128) (x3 : Arr S128) (p : Fin 50000) (k : Fin 128) :
    val_main_v47 (F := Ideal) x0 x1 x2 x3 (ix2 p k)
      = Cert.Gcn.hidR (gR x1) (LR x1) (δR x1) (δwR x1) (fun p i => x0 (ix2 p i)) (fun i k => x2 (ix2 i k))
          (fun k => x3 (ix1 k)) p k := by
  rw [val_main_v47_apply, val_main_v46_apply, v43_apply, v45_apply, val_main_call1_v0_apply, val_main_call1_cst_apply,
    Ideal.ofBits_def, Ideal.ofBits_zero_f32, Ideal.maximumf_def, Ideal.addf_def]
  unfold Cert.Gcn.hidR
  simp only [v40_apply]

/-! ## The second layer -/

/-- The hidden layer times the second weight matrix. -/
theorem v48_apply (x0 : Arr S50000x64) (x1 : IArr S2x800000) (x2 : Arr S64x128) (x3 : Arr S128) (x4 : Arr S128x64)
    (p : Fin 50000) (j : Fin 64) :
    val_main_v48 (F := Ideal) x0 x1 x2 x3 x4 (ix2 p j)
      = ∑ k : Fin 128, Cert.Gcn.hidR (gR x1) (LR x1) (δR x1) (δwR x1) (fun p i => x0 (ix2 p i))
          (fun i k => x2 (ix2 i k)) (fun k => x3 (ix1 k)) p k * x4 (ix2 k j) := by
  rw [val_main_v48_apply]
  refine Finset.sum_congr rfl fun k _ => ?_
  have hl : lidx_main_v48 (ix2 p j) k = ix2 p k := funext fun a => by
    match a with
    | ⟨0, _⟩ => rfl
    | ⟨1, _⟩ => rfl
  have hr : ridx_main_v48 (ix2 p j) k = ix2 k j := funext fun a => by
    match a with
    | ⟨0, _⟩ => rfl
    | ⟨1, _⟩ => rfl
  rw [hl, hr, v47_apply]

/-- The row an edge takes in the second layer. -/
theorem v55_apply (x0 : Arr S50000x64) (x1 : IArr S2x800000) (x2 : Arr S64x128) (x3 : Arr S128) (x4 : Arr S128x64)
    (e : Fin 850000) (j : Fin 64) :
    val_main_v55 (F := Ideal) x0 x1 x2 x3 x4 (ix2 e j) = val_main_v48 (F := Ideal) x0 x1 x2 x3 x4 (ix2 (gR x1 e) j) := by
  unfold val_main_v55
  rw [gdims_64, v54_eq]
  exact Cert.RowTakeAdd.gather_rows_apply (Nat.succ_pos _) _ _ _ e j

/-- The edge weight repeated along a row of 64. -/
theorem v57_apply (x1 : IArr S2x800000) (e : Fin 850000) (j : Fin 64) :
    val_main_v57 (F := Ideal) x1 (ix2 e j) = val_main_v29 (F := Ideal) x1 (ix1 e) := by
  rw [val_main_v57_apply, val_main_v56_apply]
  refine congrArg (val_main_v29 (F := Ideal) x1) ?_
  funext a
  match a with
  | ⟨0, _⟩ => rfl

/-- The scaled row of an edge in the second layer. -/
theorem v58_apply (x0 : Arr S50000x64) (x1 : IArr S2x800000) (x2 : Arr S64x128) (x3 : Arr S128) (x4 : Arr S128x64)
    (e : Fin 850000) (j : Fin 64) :
    val_main_v58 (F := Ideal) x0 x1 x2 x3 x4 (ix2 e j)
      = (∑ k : Fin 128, Cert.Gcn.hidR (gR x1) (LR x1) (δR x1) (δwR x1) (fun p i => x0 (ix2 p i))
          (fun i k => x2 (ix2 i k)) (fun k => x3 (ix1 k)) (gR x1 e) k * x4 (ix2 k j)) * (δR x1 (gR x1 e) * δwR x1 e) := by
  rw [val_main_v58_apply, v55_apply, v57_apply, v48_apply, v29_apply]
  rfl

/-- The scaled rows added into their target nodes. -/
theorem v61_apply (x0 : Arr S50000x64) (x1 : IArr S2x800000) (x2 : Arr S64x128) (x3 : Arr S128) (x4 : Arr S128x64)
    (n : Fin 50000) (j : Fin 64) :
    val_main_v61 (F := Ideal) x0 x1 x2 x3 x4 (ix2 n j)
      = 0 + ∑ e ∈ LR x1 n, val_main_v58 (F := Ideal) x0 x1 x2 x3 x4 (ix2 e j) := by
  unfold val_main_v61
  rw [sdims_64, v60_eq]
  refine (Cert.RowTakeAdd.scatterAdd_rows_apply _ _ _ _ n j).trans ?_
  rw [val_main_v59_apply, val_main_cst_11_apply, Ideal.ofBits_def, Ideal.ofBits_zero_f32]
  rfl

/-- The second bias repeated along the nodes. -/
theorem v63_apply (x5 : Arr S64) (n : Fin 50000) (j : Fin 64) :
    val_main_v63 (F := Ideal) x5 (ix2 n j) = x5 (ix1 j) := by
  rw [val_main_v63_apply, val_main_v62_apply]
  refine congrArg x5 ?_
  funext a
  match a with
  | ⟨0, _⟩ => rfl

/-- The reference's result at the entry (n, j) is the closed form that multiplies by the weight matrices first. -/
theorem ref_apply (x0 : Arr S50000x64) (x1 : IArr S2x800000) (x2 : Arr S64x128) (x3 : Arr S128) (x4 : Arr S128x64) (x5 : Arr S64) (n : Fin 50000) (j : Fin 64) :
    val_main_v64 (F := Ideal) x0 x1 x2 x3 x4 x5 (ix2 n j)
      = Cert.Gcn.outR (gR x1) (LR x1) (δR x1) (δwR x1) (fun p i => x0 (ix2 p i)) (fun i k => x2 (ix2 i k)) (fun k => x3 (ix1 k))
          (fun k j => x4 (ix2 k j)) (fun j => x5 (ix1 j)) n j := by
  rw [val_main_v64_apply, v61_apply, v63_apply, Ideal.addf_def]
  unfold Cert.Gcn.outR
  simp only [v58_apply]

end Cert.ReferenceIdeal.RV

end
-- ==== Proof.Cross.lean ====
/-
  The kernel program and the reference build their graph data from the edge array by the same operations: the
  source column, the target column and the node weights of the two programs are one and the same function of the
  edge array (each program prints the operations with its own shape records, which carry no data).
-/
import proofs.«101030_j23630910062676_2_alg».proof.Proof.KDefs
import proofs.«101030_j23630910062676_2_alg».proof.Proof.RDefs

noncomputable section

namespace Cert.Cross

open Idealize.ShloMosaic Idealize.ShloMosaic.ValueIdx

/-- The source columns of the two programs are the same function of the edge array. -/
theorem scol_eq (ei : IVec Cert.KernelIdeal.S2x800000 32) :
    Cert.KernelIdeal.KV.scol ei = Cert.ReferenceIdeal.ReadP.val_main_v20 (F := Ideal) ei := rfl

/-- The target columns of the two programs are the same function of the edge array. -/
theorem dcol_eq (ei : IVec Cert.KernelIdeal.S2x800000 32) :
    Cert.KernelIdeal.KV.dcol ei = Cert.ReferenceIdeal.ReadP.val_main_v9 (F := Ideal) ei := rfl

/-- The node weights of the two programs are the same function of the edge array. -/
theorem dinv_eq (ei : IVec Cert.KernelIdeal.S2x800000 32) :
    Cert.KernelIdeal.KV.dinv ei = Cert.ReferenceIdeal.ReadP.val_main_v14 (F := Ideal) ei := rfl

theorem gK_eq (ei : IVec Cert.KernelIdeal.S2x800000 32) : Cert.KernelIdeal.KV.gK ei = Cert.ReferenceIdeal.RV.gR ei := by
  funext e
  unfold Cert.KernelIdeal.KV.gK Cert.ReferenceIdeal.RV.gR
  rw [scol_eq]

theorem LK_eq (ei : IVec Cert.KernelIdeal.S2x800000 32) : Cert.KernelIdeal.KV.LK ei = Cert.ReferenceIdeal.RV.LR ei := by
  funext p
  unfold Cert.KernelIdeal.KV.LK Cert.ReferenceIdeal.RV.LR
  rw [dcol_eq]

theorem δK_eq (ei : IVec Cert.KernelIdeal.S2x800000 32) : Cert.KernelIdeal.KV.δK ei = Cert.ReferenceIdeal.RV.δR ei := by
  funext p
  unfold Cert.KernelIdeal.KV.δK Cert.ReferenceIdeal.RV.δR
  rw [dinv_eq]

end Cert.Cross

end
-- ==== Proof.LibFlatAdd.lean ====
/-
  Adding numbers into a one-axis array at a column of index words.

  What a count, or a sum, by destination lowers to, for an operand [N], a column of index words [R, 1] and
  updates [R]: an accumulating scatter of single elements.

  The scatter sends update e to the operand position idx[e, 0], read as a signed integer and not clamped; an
  update whose word is not a position of the operand is dropped. So the accumulated result at p is the operand's
  element plus the sum, over the updates e whose word denotes p, of the update's element e.
-/
import Idealize.ShloMosaic.Lib.ValueIdx

noncomputable section

open scoped BigOperators

namespace Cert.FlatAdd

open Idealize.ShloMosaic Idealize.ShloMosaic.ValueIdx

/-- A one-axis index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The scatter's dimension numbers for an operand [N], scatter indices [R, 1] and updates [R]: one index
    component per update, naming operand axis 0, which is inserted; the updates have no window axis. -/
abbrev flatScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The window of update e starts at the word idx[e, 0], read signed. -/
private theorem start_flat {N R w : Nat} (wf : ScatterDims.WF ⟨1, ![N]⟩ ⟨2, ![R, 1]⟩ ⟨1, ![R]⟩ [] [0] [0] 1)
    (idx : IVec ⟨2, ![R, 1]⟩ w) (e : Fin R) :
    (flatScatterDims N R wf).start (ix1 e) idx 0 = (idx (ix2 e (0 : Fin 1))).toInt := by
  unfold ScatterDims.start
  rw [dif_pos (show (0 : Fin 1) ∈ (flatScatterDims N R wf).scatterDimsToOperandDims from List.mem_singleton.mpr rfl)]
  have hsi : (flatScatterDims N R wf).siIdx (ix1 e) ⟨List.idxOf (0 : Fin 1) (flatScatterDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: its window coordinate is 0. -/
private theorem window_flat {N R : Nat} (wf : ScatterDims.WF ⟨1, ![N]⟩ ⟨2, ![R, 1]⟩ ⟨1, ![R]⟩ [] [0] [0] 1)
    (e : Fin R) :
    (flatScatterDims N R wf).window (ix1 e) 0 = 0 := by
  unfold ScatterDims.window
  rw [dif_neg]
  intro h
  have := (List.mem_filter.1 h).2
  simp at this

/-- Where update e lands: at p exactly when the word idx[e, 0], read signed, is the position p. -/
theorem resultIdx_flat_iff {N R w : Nat} (wf : ScatterDims.WF ⟨1, ![N]⟩ ⟨2, ![R, 1]⟩ ⟨1, ![R]⟩ [] [0] [0] 1)
    (idx : IVec ⟨2, ![R, 1]⟩ w) (e : Fin R) (p : Fin N) :
    (flatScatterDims N R wf).resultIdx? (ix1 e) idx = some (ix1 p)
      ↔ (idx (ix2 e (0 : Fin 1))).toInt = (p.val : Int) := by
  have h0 : (flatScatterDims N R wf).start (ix1 e) idx 0 + (((flatScatterDims N R wf).window (ix1 e) 0 : Nat) : Int)
      = (idx (ix2 e (0 : Fin 1))).toInt := by
    rw [start_flat, window_flat]; simp
  unfold ScatterDims.resultIdx?
  constructor
  · intro h
    split at h
    · rename_i hin
      have hf := Option.some.inj h
      have e0 : ((flatScatterDims N R wf).start (ix1 e) idx 0
          + (((flatScatterDims N R wf).window (ix1 e) 0 : Nat) : Int)).toNat = p.val :=
        congrArg (fun f : (⟨1, ![N]⟩ : Shape).Idx => (f 0).val) hf
      have hn := (hin 0).1
      rw [h0] at e0 hn
      omega
    · exact absurd h (by simp)
  · intro hv
    have hin : ∀ a, 0 ≤ (flatScatterDims N R wf).start (ix1 e) idx a + ((flatScatterDims N R wf).window (ix1 e) a : Int)
        ∧ (flatScatterDims N R wf).start (ix1 e) idx a + ((flatScatterDims N R wf).window (ix1 e) a : Int)
          < ((⟨1, ![N]⟩ : Shape).size a : Int) := by
      intro a
      match a with
      | ⟨0, _⟩ =>
        show 0 ≤ (flatScatterDims N R wf).start (ix1 e) idx 0 + (((flatScatterDims N R wf).window (ix1 e) 0 : Nat) : Int)
          ∧ (flatScatterDims N R wf).start (ix1 e) idx 0 + (((flatScatterDims N R wf).window (ix1 e) 0 : Nat) : Int)
            < ((N : Nat) : Int)
        rw [h0, hv]
        have := p.isLt
        omega
    rw [dif_pos hin]
    refine congrArg some ?_
    funext a
    refine Fin.ext ?_
    match a with
    | ⟨0, _⟩ =>
      show ((flatScatterDims N R wf).start (ix1 e) idx 0
        + (((flatScatterDims N R wf).window (ix1 e) 0 : Nat) : Int)).toNat = p.val
      rw [h0, hv]
      exact Int.toNat_natCast _

/-- The accumulating scatter read at p: the operand's element plus the sum, over the updates e whose word
    idx[e, 0] read signed is the position p, of the update's element e. -/
theorem scatterAdd_flat_apply {N R w : Nat} {φ : FTy} (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (p : Fin N) :
    Host.scatterAdd (F := Ideal) (flatScatterDims N R wf) x idx upd (ix1 p)
      = x (ix1 p) + ∑ e ∈ Finset.univ.filter
          (fun e : Fin R => (idx (ix2 e (0 : Fin 1))).toInt = (p.val : Int)), upd (ix1 e) := by
  show Ideal.hostScatterAdd (flatScatterDims N R wf) x idx upd (ix1 p) = _
  unfold Ideal.hostScatterAdd
  refine congrArg (fun t => x (ix1 p) + t) ?_
  rw [Finset.sum_filter, Finset.sum_filter, sum_idx1]
  refine Finset.sum_congr rfl fun e _ => ?_
  exact if_congr (resultIdx_flat_iff wf idx e p) rfl rfl

end Cert.FlatAdd

end
-- ==== Proof.LibWordIndex.lean ====
/-
  Small numbers as 32-bit index words.

  An index computed in 32-bit words is read back by a gather as a SIGNED integer; jax first adds the
  axis' extent to a negative index. For a word that denotes a number below 2^31 neither matters: the
  signed reading is the number itself and the sign test is false. And 64 * r + w, computed in words
  for r < 16 and a word w below 64, denotes 64 r + w (nothing wraps).
-/
import Idealize.ShloMosaic.Lib.ValueIdx

open Idealize.ShloMosaic

namespace Cert.WordIndex

/-- The signed reading of a word below 2^31, as a natural number, is the number it denotes. -/
theorem toInt_toNat_of_lt (v : BitVec 32) (hv : v.toNat < 2 ^ 31) : v.toInt.toNat = v.toNat := by
  rw [BitVec.toInt_eq_toNat_cond]
  have : 2 * v.toNat < 2 ^ 32 := by omega
  rw [if_pos this]
  exact Int.toNat_natCast _

/-- A word below 2^31 is not negative: the select that would add the extent keeps the word. -/
theorem select_slt_zero (v a : BitVec 32) (hv : v.toNat < 2 ^ 31) :
    Scalar.select (IntOp.cmpi .slt v 0#32) a v = v := by
  have h : IntOp.cmpi .slt v 0#32 = 0#1 := by
    have hs : v.slt 0#32 = false := by
      rw [BitVec.slt, BitVec.toInt_eq_toNat_cond, if_pos (by omega : 2 * v.toNat < 2 ^ 32)]
      simp
    simp [IntOp.cmpi, hs]
  rw [h]
  exact ValueIdx.select_zero a v

/-- A counter below 2^32, as a word, denotes itself. -/
theorem toNat_ofNat_of_lt {k : ℕ} (hk : k < 2 ^ 32) : (BitVec.ofNat 32 k).toNat = k := by
  rw [BitVec.toNat_ofNat, Nat.mod_eq_of_lt hk]

/-- 64 r + w in words, for a row r < 16 and a column word w below 64, denotes 64 r + w. -/
theorem toNat_row_add (r : ℕ) (hr : r < 16) (w : BitVec 32) (hw : w.toNat < 64) :
    (IntOp.addi (IntOp.muli (BitVec.ofNat 32 r) 64#32) w).toNat = r * 64 + w.toNat := by
  show ((BitVec.ofNat 32 r) * 64#32 + w).toNat = _
  rw [BitVec.toNat_add, BitVec.toNat_mul, BitVec.toNat_ofNat]
  show (r % 2 ^ 32 * 64 % 2 ^ 32 + w.toNat) % 2 ^ 32 = _
  omega

end Cert.WordIndex
-- ==== Proof.IdxFacts.lean ====
/-
  Two facts about the graph data of the reference program.

  The degree of a node is a sum of ones over the edges that add into it, so it is the number of those edges: a
  natural number. The node's weight is the inverse square root of the degree where the degree is positive and 0
  elsewhere: in both cases a nonnegative real, never an infinity.

  An edge adds into node p exactly when its target word, read as a signed integer, is p. Such a word is not negative,
  so the reference's look-up of the weight at the target (a negative word would first be moved up by the number of
  nodes, then the word is clamped into the node range) finds the weight of p itself.
-/
import proofs.«101030_j23630910062676_2_alg».proof.Proof.RDefs
import proofs.«101030_j23630910062676_2_alg».proof.Proof.GcnSpec
import proofs.«101030_j23630910062676_2_alg».proof.Proof.LibFlatAdd
import proofs.«101030_j23630910062676_2_alg».proof.Proof.LibWordIndex
import Idealize.ShloMosaic.PureOps.Ideal.Laws

noncomputable section

open scoped BigOperators

namespace Cert.ReferenceIdeal.RV

open Cert.ReferenceIdeal Cert.ReferenceIdeal.ReadP Cert.ReferenceIdeal.Facts₀ Cert.ReferenceIdeal.Facts Idealize.ShloMosaic Idealize.ShloMosaic.ValueIdx

/-- The pattern 0x3F800000 denotes the real number 1. -/
theorem one_f32 : Ideal.ofBits .f32 0x3F800000#32 = ((1 : ℝ) : EReal) := by
  simp [Ideal.ofBits, Ideal.ieee]
  norm_num
  first
    | (norm_cast; norm_num)
    | (rw [← EReal.coe_mul]; norm_num)
    | (simp only [← EReal.coe_mul]; norm_num)

/-- The degree of node `p` is the number of edges that add into it. -/
theorem deg_apply (x1 : IArr S2x800000) (p : Fin 50000) :
    val_main_v10 (F := Ideal) x1 (ix1 p) = ((((LR x1 p).card : ℕ) : ℝ) : EReal) := by
  unfold val_main_v10
  have wf : ScatterDims.WF ⟨1, ![50000]⟩ ⟨2, ![850000, 1]⟩ ⟨1, ![850000]⟩ [] [0] [0] 1 := scatter_S50000_S850000x1_S850000_n_0_0_1.wf
  show Host.scatterAdd (F := Ideal) (Cert.FlatAdd.flatScatterDims 50000 850000 wf)
    (val_main_v8 (F := Ideal)) (val_main_v9 (F := Ideal) x1) (val_main_v7 (F := Ideal)) (ix1 p) = _
  rw [Cert.FlatAdd.scatterAdd_flat_apply]
  rw [val_main_v8_apply, val_main_cst_0_apply, Ideal.ofBits_def, Ideal.ofBits_zero_f32, zero_add]
  have hs : ∀ e : Fin 850000, val_main_v7 (F := Ideal) (ix1 e) = ((1 : ℝ) : EReal) := fun e => by
    rw [val_main_v7_apply, val_main_cst_apply, Ideal.ofBits_def]; exact one_f32
  rw [Finset.sum_congr rfl (fun e _ => hs e), ← Cert.Gcn.coe_sum]
  unfold LR
  rw [Finset.sum_const, nsmul_eq_mul, mul_one]

/-- A node's weight is a nonnegative real. -/
theorem δR_real (x1 : IArr S2x800000) (p : Fin 50000) : ∃ r : ℝ, 0 ≤ r ∧ δR x1 p = r := by
  unfold δR
  rw [val_main_v14_apply, val_main_v12_apply, val_main_v13_apply, val_main_v11_apply, val_main_cst_1_apply,
    val_main_call0_v1_apply, val_main_call0_v0_apply, val_main_cst_2_apply, deg_apply]
  simp only [Ideal.ofBits_def, Ideal.ofBits_zero_f32, Ideal.cmpf_def, Ideal.hostUnary_rsqrt_def, Ideal.rsqrt_coe,
    Scalar.select, Ideal.cmp]
  generalize (LR x1 p).card = n
  by_cases h : 0 < n
  · have hc : (0 : ℝ) < (n : ℝ) := Nat.cast_pos.mpr h
    have h1 : (0 : EReal) < ((n : ℝ) : EReal) := EReal.coe_pos.mpr hc
    refine ⟨(Real.sqrt (n : ℝ))⁻¹, inv_nonneg.mpr (Real.sqrt_nonneg _), ?_⟩
    rw [decide_eq_true h1, if_pos (by rfl), if_neg (not_lt.mpr hc.le), if_neg hc.ne']
  · have h0 : n = 0 := by omega
    subst h0
    refine ⟨0, le_refl _, ?_⟩
    have h1 : ¬ ((0 : EReal) < (((0 : ℕ) : ℝ) : EReal)) := by simp
    rw [decide_eq_false h1, if_neg (by decide)]
    exact EReal.coe_zero.symm

/-- For an edge that adds into node `p`, the weight looked up at its target is the weight of `p`. -/
theorem δwR_of_mem (x1 : IArr S2x800000) (p : Fin 50000) (e : Fin 850000) (he : e ∈ LR x1 p) :
    δwR x1 e = δR x1 p := by
  unfold δwR δR
  have hd : (val_main_v9 (F := Ideal) x1 (ix2 e (0 : Fin 1))).toInt = (p.val : Int) := (Finset.mem_filter.mp he).2
  refine congrArg (fun q => val_main_v14 (F := Ideal) x1 (ix1 q)) ?_
  rw [val_main_v27_apply, val_main_v26_apply, val_main_v23_apply, val_main_v22_apply, val_main_c_4_apply]
  rw [val_main_v9_apply] at hd
  have hidx : idx_main_v27 (ix2 e (0 : Fin 1)) = idx_main_v9 (ix2 e (0 : Fin 1)) := rfl
  rw [hidx]
  generalize val_main_v6 (F := Ideal) x1 (idx_main_v9 (ix2 e (0 : Fin 1))) = d at hd ⊢
  generalize val_main_v25 (F := Ideal) x1 (idx_main_v9 (ix2 e (0 : Fin 1))) = a
  have hlt : d.toNat < 2 ^ 31 := by
    rw [BitVec.toInt_eq_toNat_cond] at hd
    have := d.isLt
    have := p.isLt
    split at hd <;> omega
  rw [Cert.WordIndex.select_slt_zero d a hlt]
  refine Fin.ext ?_
  show min d.toInt.toNat (50000 - 1) = p.val
  rw [hd]
  have := p.isLt
  omega

end Cert.ReferenceIdeal.RV

end
-- ==== Proof.Finite.lean ====
/-
  The precondition says that every float input is finite: for each float argument, every entry's absolute value is
  below +∞, and the conjunction of all these comparisons is true. An extended real whose absolute value is below +∞
  is neither infinity, so it is a real number. Used here for the node features and the first weight matrix: these are
  the entries that a product is moved across a sum of.
-/
import proofs.«101030_j23630910062676_2_alg».proof.Pre_finite_inputs
import proofs.«101030_j23630910062676_2_alg».proof.Proof.Gen.Pre_finite_inputs
import Idealize.ShloMosaic.Lib.ReduceAll
import Idealize.ShloMosaic.Lib.Affine
import Idealize.ShloMosaic.Lib.Pipeline.Value
import Idealize.ShloMosaic.Lib.ValueIdx
import Idealize.ShloMosaic.PureOps.Ideal.Laws

noncomputable section

namespace Cert.Finite

open Cert.Pre_finite_inputs Cert.Pre_finite_inputs.Facts Idealize.ShloMosaic Idealize.ShloMosaic.ValueIdx

instance : Subsingleton S_.Idx := ⟨fun a b => funext fun d => d.elim0⟩

/-- The pattern 0x7F800000 denotes +∞. -/
theorem inf_f32 : Ideal.ofBits .f32 0x7F800000#32 = (⊤ : EReal) := by
  simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = r := by
  rw [inf_f32] at h
  induction x using EReal.rec with
  | bot => exact absurd h (by simp [Ideal.cmp])
  | top => exact absurd h (by simp [Ideal.cmp])
  | coe r => exact ⟨r, rfl⟩

/-- An entry of an array whose comparison "absolute value below +∞" is true is a real number. -/
theorem real_of_all {S : Shape} (hb : S_.BroadcastsInDim S (![] : Fin 0 → Fin S.rank)) (x : FVec Ideal S .f32) (i : S.Idx)
    (h : cmpf (F := Ideal) .olt (Host.absf (F := Ideal) x)
      (broadcastInDim S ![] hb (constant (F := Ideal) S_ .f32 0x7F800000#32)) i = 1#1) : ∃ r : ℝ, x i = r := by
  have e : broadcastInDim S ![] hb (constant (F := Ideal) S_ .f32 0x7F800000#32) i = Ideal.ofBits .f32 0x7F800000#32 :=
    (broadcastInDim_apply _ hb (constant (F := Ideal) S_ .f32 0x7F800000#32) i (fun a => a.elim0) (fun a => a.elim0)).trans rfl
  refine real_of_abs_lt (x i) ?_
  have h2 : Ideal.cmp .olt (max (x i) (-(x i)))
      (broadcastInDim S ![] hb (constant (F := Ideal) S_ .f32 0x7F800000#32) i) = 1#1 := h
  rwa [e] at h2

/-- Under the precondition every entry of the node features and of the first weight matrix is a real number. -/
theorem real_args (x0 : FVec Ideal S50000x64 .f32) (x1 : IVec S2x800000 32) (x2 : FVec Ideal S64x128 .f32)
    (x3 : FVec Ideal S128 .f32) (x4 : FVec Ideal S128x64 .f32) (x5 : FVec Ideal S64 .f32)
    (h : fn (F := Ideal) x0 x1 x2 x3 x4 x5 = fun _ => 1#1) :
    (∀ i, ∃ r : ℝ, x0 i = r) ∧ (∀ i, ∃ r : ℝ, x2 i = r) := by
  have h0 := congrFun h ix0
  dsimp only [fn, fn_part1] at h0
  obtain ⟨h1, -⟩ := IntOp.andi_eq_one.mp h0
  obtain ⟨h13, -⟩ := IntOp.andi_eq_one.mp h1
  obtain ⟨h8, -⟩ := IntOp.andi_eq_one.mp h13
  obtain ⟨h3, h7⟩ := IntOp.andi_eq_one.mp h8
  refine ⟨fun i => ?_, fun i => ?_⟩
  · exact real_of_all _ x0 i (Host.reduce_andi_all _ _ _ _ ix0 h3 i)
  · exact real_of_all _ x2 i (Host.reduce_andi_all _ _ _ _ ix0 h7 i)

end Cert.Finite

end
-- ==== Proof.Bridge.lean ====
/-
  The two programs compute the same array.

  Entry (n, j) of the kernel program's result is the two-layer graph convolution with the scaling by the node weights
  around each sum over the edges and the first weight matrix applied after the first sum; entry (n, j) of the
  reference's is the same convolution with the edge weight inside each sum and the weight matrices applied first. The
  graph data of the two programs are the same functions of the edge array, the node weights are nonnegative reals, the
  weight the reference looks up at an edge's target is the target's, and under the precondition the node features and
  the first weight matrix are real: so the two entries agree.
-/
import proofs.«101030_j23630910062676_2_alg».proof.Proof.KRead
import proofs.«101030_j23630910062676_2_alg».proof.Proof.RRead
import proofs.«101030_j23630910062676_2_alg».proof.Proof.GcnSpec
import proofs.«101030_j23630910062676_2_alg».proof.Proof.Cross
import proofs.«101030_j23630910062676_2_alg».proof.Proof.IdxFacts
import proofs.«101030_j23630910062676_2_alg».proof.Proof.Finite

noncomputable section

namespace Cert.Bridge

open Idealize.ShloMosaic Idealize.ShloMosaic.ValueIdx

/-- Under the precondition the kernel program's result term and the reference's are the same array. -/
theorem term_eq (x0 : FVec Ideal Cert.KernelIdeal.S50000x64 .f32) (x1 : IVec Cert.KernelIdeal.S2x800000 32)
    (x2 : FVec Ideal Cert.KernelIdeal.S64x128 .f32) (x3 : FVec Ideal Cert.KernelIdeal.S128 .f32)
    (x4 : FVec Ideal Cert.KernelIdeal.S128x64 .f32) (x5 : FVec Ideal Cert.KernelIdeal.S64 .f32)
    (hpre : Cert.Pre_finite_inputs.fn (F := Ideal) x0 x1 x2 x3 x4 x5 = fun _ => 1#1) :
    Cert.KernelIdeal.KV.term x0 x1 x2 x3 x4 x5 = Cert.ReferenceIdeal.ReadP.val_main_v64 (F := Ideal) x0 x1 x2 x3 x4 x5 := by
  obtain ⟨hx0, hx2⟩ := Cert.Finite.real_args x0 x1 x2 x3 x4 x5 hpre
  funext idx
  obtain ⟨n, j, rfl⟩ : ∃ (n : Fin 50000) (j : Fin 64), idx = ix2 n j := ⟨idx 0, idx 1, eq_ix2 idx⟩
  rw [Cert.KernelIdeal.KV.term_apply, Cert.ReferenceIdeal.RV.ref_apply, Cert.Cross.gK_eq, Cert.Cross.LK_eq, Cert.Cross.δK_eq]
  exact Cert.Gcn.out_eq _ _ _ _ _ _ _ _ _ (fun p e he => Cert.ReferenceIdeal.RV.δwR_of_mem x1 p e he)
    (fun p i => hx0 _) (fun i k => hx2 _) (fun p => Cert.ReferenceIdeal.RV.δR_real x1 p) n j

end Cert.Bridge

end
-- ==== Proof.lean ====
/-
  The certificate of a two-layer graph convolution kernel against its reference.

  The kernel program computes D^(-1/2) A D^(-1/2) twice over a list of edges (A the adjacency with one loop per node,
  D the degrees): it scales the node features by the inverse square roots of the degrees, sums them over the edges
  into the target nodes, scales again, applies relu (· W1 + b1) · W2 in one Pallas call, row block by row block,
  and aggregates once more before adding b2. The reference multiplies by each weight matrix first and carries the
  product of the two inverse square roots as an edge weight inside each sum. Over the extended reals the two are the
  same array when the node features and the first weight matrix are finite (the precondition), because a finite
  product moves across a finite sum; for the second layer a nonnegative real factor moves across a sum of any
  extended reals. The frames are the generated ones; the idealization rewrote nothing, so `preserves` is trivial.
-/
import proofs.«101030_j23630910062676_2_alg».proof.Defs
import proofs.«101030_j23630910062676_2_alg».proof.Proof.Gen.Kernel
import proofs.«101030_j23630910062676_2_alg».proof.Proof.Gen.Kernel.Skeleton
import proofs.«101030_j23630910062676_2_alg».proof.Proof.Gen.Kernel.Launch
import proofs.«101030_j23630910062676_2_alg».proof.Proof.Gen.Kernel.Points
import proofs.«101030_j23630910062676_2_alg».proof.Proof.Gen.Kernel.Frame
import proofs.«101030_j23630910062676_2_alg».proof.Proof.Gen.KernelIdeal
import proofs.«101030_j23630910062676_2_alg».proof.Proof.Gen.KernelIdeal.Skeleton
import proofs.«101030_j23630910062676_2_alg».proof.Proof.Gen.KernelIdeal.Launch
import proofs.«101030_j23630910062676_2_alg».proof.Proof.Gen.KernelIdeal.Points
import proofs.«101030_j23630910062676_2_alg».proof.Proof.Gen.KernelIdeal.Frame
import proofs.«101030_j23630910062676_2_alg».proof.Proof.Gen.ReferenceIdeal
import proofs.«101030_j23630910062676_2_alg».proof.Proof.Gen.Pre_finite_inputs
import proofs.«101030_j23630910062676_2_alg».proof.Proof.RefRunP
import proofs.«101030_j23630910062676_2_alg».proof.Proof.RefReadP
import proofs.«101030_j23630910062676_2_alg».proof.Proof.KRun
import proofs.«101030_j23630910062676_2_alg».proof.Proof.Bridge
import Idealize.ShloMosaic.Adequacy
import Idealize.ShloMosaic.Init

noncomputable section

namespace Cert.Proof

open Idealize.ShloMosaic Idealize.SL.Sem

/-- The word-level kernel program runs and leaves its arguments unchanged: the generated frame. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Over the extended reals, from memories that agree on the arguments, the kernel program ends with its result term
    and the reference with its own; under the precondition the two terms are the same array. -/
theorem algebraic : Cert.algebraic_KernelIdeal_ReferenceIdeal := by
  intro m ρ m' ρ' hpre hagree
  refine ⟨fun c => Cert.KernelIdeal.KV.term
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.KV.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v64_eq, (hagree c).1, (hagree c).2.1, (hagree c).2.2.1, (hagree c).2.2.2.1,
    (hagree c).2.2.2.2.1, (hagree c).2.2.2.2.2]
  exact (Cert.Bridge.term_eq _ _ _ _ _ _ (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
